-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩
abbrev S1600000x64 : Shape := ⟨2, ![1600000, 64]⟩
abbrev S1x64 : Shape := ⟨2, ![1, 64]⟩

abbrev nBuf : Space → Nat
  | .hbm => 57
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x128, .bf16⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .bf16⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x64, .f32⟩
  | .hbm, ⟨40, _⟩ => ⟨S100000x64, .bf16⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .bf16⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S1x64, .f32⟩
  | .hbm, ⟨56, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S128x64, .f32⟩
  | .local _ .vmem, ⟨10, _⟩ => ⟨S4000x128, .f32⟩
  | .local _ .vmem, ⟨11, _⟩ => ⟨S4000x128, .f32⟩
  | .local _ .vmem, ⟨12, _⟩ => ⟨S4000x64, .f32⟩
  | .local _ .vmem, ⟨13, _⟩ => ⟨S4000x64, .f32⟩
  | .local _ .vmem, ⟨14, _⟩ => ⟨S4000x128, .f32⟩
  | .local _ .vmem, ⟨15, _⟩ => ⟨S4000x128, .f32⟩
  | .local _ .vmem, ⟨16, _⟩ => ⟨S4000x64, .f32⟩
  | .local _ .vmem, ⟨17, _⟩ => ⟨S4000x64, .f32⟩
  | .local _ .vmem, ⟨18, _⟩ => ⟨S4000x1, .f32⟩
  | .local _ .vmem, ⟨19, _⟩ => ⟨S4000x1, .f32⟩
  | .local _ .vmem, ⟨20, _⟩ => ⟨S128x64, .f32⟩
  | .local _ .vmem, ⟨21, _⟩ => ⟨S1x64, .f32⟩
  | .local _ .vmem, ⟨22, _⟩ => ⟨S4000x64, .f32⟩
  | .local _ .vmem, ⟨23, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .f32 = 32 ∨ (Rect.block (s := S100000x128) S4000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x64.size a ≤ S100000x64.size a
  hwx0_8 : ∀ i : grid0.Coords, EltTy.bits .f32 = 32 ∨ (Rect.block (s := S100000x64) S4000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24_0) S4000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v24_1) S4000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v24_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S1x1600000, .i32⟩
  | .hbm, ⟨47, _⟩ => ⟨S1600000, .i32⟩
  | .hbm, ⟨48, _⟩ => ⟨S1x1600000, .i32⟩
  | .hbm, ⟨49, _⟩ => ⟨S1600000, .i32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The tiled program's run with its result named.

  The program is four segments: host operations, the first tiled stage, host operations, the last tiled stage. The
  buffer contents at each boundary are a fold from the launch memory; at the last boundary the result array holds what
  the last stage's write-backs leave, and every argument array what it held at launch. Every weakly fair execution
  terminates, nothing faulting, in a state whose unscoped buffers are that last boundary's contents.
-/
import proofs.«178504_j42391327211901_2_alg».proof.Proof.Gen.KernelIdeal.Frame

set_option maxRecDepth 16384

noncomputable section

namespace Cert.Sage.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the tiled program terminates, nothing faulting; the result array ends at what the
    last stage's write-backs leave of the contents that stage was entered with, and the arguments end as launched. -/
theorem run_value : θ_run defs (onTc (τ := τ) (main (F := F))) ⟨m, fun _ => 0, ρ⟩ (fun r => ∀ c : Dev nD,
      r.2.mem ((c.tc : Thread nD τ).loc main_v38) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v38 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Sage.Run

end
-- ==== Proof.LibGnnLaws.lean ====
import Idealize.ShloMosaic.PureOps.Ideal
import Idealize.ShloMosaic.PureOps.Ideal.Laws

/-!
# Laws of a message-passing layer over the extended reals

A graph network's layer can be arranged in two ways. One arrangement computes, per EDGE, the affine image of the
edge's hidden message and then sums the images at the edge's destination node. The other sums the hidden messages
at the node first and applies the affine map once, the bias weighted by the node's in-degree. Over the reals the
two agree by linearity; over the extended reals (where a float is a real number or an infinity, and
distributivity fails at the infinities) they agree when the entries are real numbers. This module states that law
and the smaller ones around it, over abstract finite index types:

* `IsReal` — "is the coercion of a real number" — and its closure under sums, products, `relu`, finite sums;
* `coe_sum` — the coercion of a finite sum of reals is the sum of the coercions;
* `sum_edges_affine` — the aggregation law above, for any finite set of edges (and for the set of edges into a
  node, with the in-degree as a sum of indicator values);
* `sum_fin_add_split` — a contraction over `m + n` indices is the contraction over the first `m` plus the one
  over the last `n` (no finiteness: associativity and commutativity only);
* `onehot_select` — a one-hot row times a table column selects the table's entry (no finiteness either: zero
  times anything is zero in Mathlib's extended reals);
* `mul_inv_eq_div` — multiplying by the reciprocal of a nonzero real is the ideal division by it, at the
  infinities too;
* the extended reals the float words `0.0`, `1.0` and `50000.0` denote.
-/

noncomputable section

open scoped BigOperators

namespace Cert.Lib.GnnLaws

open Idealize.ShloMosaic

/-! ## Real entries -/

/-- An extended real that is (the coercion of) a real number. -/
def IsReal (x : EReal) : Prop := ∃ r : ℝ, x = (r : EReal)

/-- A coerced real is real. -/
theorem IsReal.coe (r : ℝ) : IsReal (r : EReal) := ⟨r, rfl⟩

/-- Zero is real. -/
theorem IsReal.zero : IsReal 0 := ⟨0, rfl⟩

/-- One is real. -/
theorem IsReal.one : IsReal 1 := ⟨1, rfl⟩

/-- A real entry is neither infinity. -/
theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- An extended real that is neither infinity is real. -/
theorem isReal_of_ne {x : EReal} (ht : x ≠ ⊤) (hb : x ≠ ⊥) : IsReal x :=
  ⟨x.toReal, (EReal.coe_toReal ht hb).symm⟩

/-- The sum of two real entries is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The product of two real entries is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The maximum of two real entries is real. -/
theorem isReal_max {x y : EReal} (hx : IsReal x) (hy : IsReal y) : IsReal (max x y) := by
  rcases max_choice x y with h | h <;> rw [h] <;> assumption

/-- `relu` of a real entry is real. -/
theorem IsReal.relu {x : EReal} (hx : IsReal x) : IsReal (max x 0) := isReal_max hx IsReal.zero

/-- `relu` of a coerced real is the coerced `relu`. -/
theorem relu_coe (a : ℝ) : max (a : EReal) 0 = ((max a 0 : ℝ) : EReal) := by
  rcases le_total a 0 with h | h
  · rw [max_eq_right h, max_eq_right (by exact_mod_cast h)]; rfl
  · rw [max_eq_left h, max_eq_left (by exact_mod_cast h)]

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of real entries is real. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- A contraction of real entries is real. -/
theorem IsReal.dot {κ : Type*} [Fintype κ] (x w : κ → EReal) (hx : ∀ k, IsReal (x k)) (hw : ∀ k, IsReal (w k)) :
    IsReal (∑ k, x k * w k) :=
  IsReal.sum _ _ fun k _ => (hx k).mul (hw k)

/-- The ideal division of a real entry by a nonzero real is real. -/
theorem IsReal.div_coe {s : EReal} (hs : IsReal s) {y : ℝ} (hy : y ≠ 0) : IsReal (Ideal.div s (y : EReal)) := by
  rw [Ideal.div_coe hy]; exact hs.mul (IsReal.coe _)

/-- A family of real entries is the coercion of a family of reals. -/
theorem exists_real_fun {ι : Type*} (f : ι → EReal) (h : ∀ i, IsReal (f i)) : ∃ g : ι → ℝ, ∀ i, f i = (g i : EReal) :=
  ⟨fun i => (h i).choose, fun i => (h i).choose_spec⟩

/-- The same for a family over two indices. -/
theorem exists_real_fun₂ {ι κ : Type*} (f : ι → κ → EReal) (h : ∀ i k, IsReal (f i k)) :
    ∃ g : ι → κ → ℝ, ∀ i k, f i k = (g i k : EReal) :=
  ⟨fun i k => (h i k).choose, fun i k => (h i k).choose_spec⟩

/-! ## The aggregation law -/

section Aggregation

variable {E K : Type*} [Fintype K]

/-- THE AGGREGATION LAW, over reals: summing over a finite set of edges the affine image `r e · w + b` of each
    edge's hidden message is the affine image of the summed messages, the bias weighted by the number of edges. -/
theorem sum_edges_affine (S : Finset E) (r : E → K → ℝ) (w : K → ℝ) (b : ℝ) :
    ∑ e ∈ S, ((∑ k, (r e k : EReal) * (w k : EReal)) + (b : EReal))
      = (∑ k, (∑ e ∈ S, (r e k : EReal)) * (w k : EReal)) + ((S.card : ℝ) : EReal) * (b : EReal) := by
  have hreal : ∑ e ∈ S, ((∑ k, r e k * w k) + b) = (∑ k, (∑ e ∈ S, r e k) * w k) + (S.card : ℝ) * b := by
    rw [Finset.sum_add_distrib, Finset.sum_comm, Finset.sum_const, nsmul_eq_mul]
    congr 1
    exact Finset.sum_congr rfl fun k _ => (Finset.sum_mul S (fun e => r e k) (w k)).symm
  simp only [← EReal.coe_mul, ← coe_sum, ← EReal.coe_add]
  exact congrArg _ hreal

/-- The aggregation law for extended reals with real entries. -/
theorem sum_edges_affine_of_isReal (S : Finset E) (r : E → K → EReal) (w : K → EReal) (b : EReal)
    (hr : ∀ e k, IsReal (r e k)) (hw : ∀ k, IsReal (w k)) (hb : IsReal b) :
    ∑ e ∈ S, ((∑ k, r e k * w k) + b) = (∑ k, (∑ e ∈ S, r e k) * w k) + ((S.card : ℝ) : EReal) * b := by
  obtain ⟨r', hr'⟩ := exists_real_fun₂ r hr
  obtain ⟨w', hw'⟩ := exists_real_fun w hw
  obtain ⟨b', rfl⟩ := hb
  simp only [hr', hw']
  exact sum_edges_affine S r' w' b'

/-- The number of members of a filtered finite set, as the extended-real sum of the indicator values: a node's
    in-degree as a scatter-add of ones computes it. -/
theorem card_filter_eq_sum_ite {E : Type*} (S : Finset E) (p : E → Prop) [DecidablePred p] :
    (((S.filter p).card : ℝ) : EReal) = ∑ e ∈ S, (if p e then (1 : EReal) else 0) := by
  have h : (((S.filter p).card : ℝ)) = ∑ e ∈ S, (if p e then (1 : ℝ) else 0) := by
    rw [Finset.card_filter]; push_cast; rfl
  rw [h, coe_sum]
  exact Finset.sum_congr rfl fun e _ => by split <;> rfl

/-- The aggregation law at a node: over the edges whose destination is the node, the bias weighted by the in-degree
    written as the sum of indicator values over all edges. -/
theorem sum_into_node_affine {E N : Type*} [Fintype E] [DecidableEq N] (dst : E → N) (n : N)
    (r : E → K → EReal) (w : K → EReal) (b : EReal)
    (hr : ∀ e k, IsReal (r e k)) (hw : ∀ k, IsReal (w k)) (hb : IsReal b) :
    ∑ e ∈ Finset.univ.filter (fun e => dst e = n), ((∑ k, r e k * w k) + b)
      = (∑ k, (∑ e ∈ Finset.univ.filter (fun e => dst e = n), r e k) * w k)
        + (∑ e, (if dst e = n then (1 : EReal) else 0)) * b := by
  rw [sum_edges_affine_of_isReal _ r w b hr hw hb, card_filter_eq_sum_ite]

end Aggregation

/-! ## A contraction split in two -/

/-- A sum over `m + n` indices is the sum over the first `m` plus the sum over the last `n`. -/
theorem sum_fin_add_split {m n : Nat} (f : Fin (m + n) → EReal) :
    ∑ k, f k = (∑ k : Fin m, f (Fin.castAdd n k)) + ∑ k : Fin n, f (Fin.natAdd m k) :=
  Fin.sum_univ_add f

/-- A contraction over 128 indices is the contraction over the first 64 plus the one over the last 64: a
    concatenated pair of 64-wide rows against a 128-row matrix is the first row against the top half plus the
    second row against the bottom half. -/
theorem sum_fin128_split (x w : Fin 128 → EReal) :
    ∑ k, x k * w k
      = (∑ k : Fin 64, x (Fin.castAdd 64 k) * w (Fin.castAdd 64 k))
        + ∑ k : Fin 64, x (Fin.natAdd 64 k) * w (Fin.natAdd 64 k) :=
  sum_fin_add_split (m := 64) (n := 64) fun k => x k * w k

/-- Regrouping a bias: `A + (B + c) = (A + B) + c`. -/
theorem add_regroup (A B c : EReal) : A + (B + c) = (A + B) + c := (add_assoc A B c).symm

/-! ## One-hot selection -/

/-- A one-hot row times a column selects the column's entry at the hot index. -/
theorem onehot_select {V : Type*} [Fintype V] [DecidableEq V] (emb : V → EReal) (x : V) :
    ∑ v, (if x = v then (1 : EReal) else 0) * emb v = emb x := by
  rw [Finset.sum_eq_single x]
  · rw [if_pos rfl, one_mul]
  · intro v _ hv
    rw [if_neg (fun h => hv h.symm), zero_mul]
  · intro h; exact absurd (Finset.mem_univ x) h

/-- The same with the comparison written the other way round. -/
theorem onehot_select' {V : Type*} [Fintype V] [DecidableEq V] (emb : V → EReal) (x : V) :
    ∑ v, (if v = x then (1 : EReal) else 0) * emb v = emb x := by
  rw [← onehot_select emb x]
  exact Finset.sum_congr rfl fun v _ => by simp only [eq_comm]

/-! ## The mean -/

/-- Multiplying by the reciprocal of a nonzero real is the ideal division by it, at the infinities too. -/
theorem mul_inv_eq_div {y : ℝ} (h : y ≠ 0) (s : EReal) : s * ((1 / y : ℝ) : EReal) = Ideal.div s (y : EReal) :=
  (Ideal.div_coe h s).symm

/-- A sum over 50000 nodes times `1 / 50000` is the sum divided by 50000. -/
theorem mul_inv_50000 (s : EReal) : s * ((1 / 50000 : ℝ) : EReal) = Ideal.div s ((50000 : ℝ) : EReal) :=
  mul_inv_eq_div (by norm_num) s

/-! ## The float words of this network -/

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `50000.0` denotes the real `50000`. -/
theorem ofBits_50000 : Ideal.ofBits .f32 0x47435000#32 = ((50000 : ℝ) : EReal) := by
  simp [Ideal.ofBits, Ideal.ieee, -EReal.coe_mul]; norm_num

end Cert.Lib.GnnLaws

end
-- ==== Proof.Spec.lean ====
/-
  Two layers of mean aggregation over a graph, as functions of the node features, the edges and the weights.

  A node's incoming edges are those whose destination word, read signed, is the node. Its degree is their number,
  and never below one. A layer averages the rows its incoming edges' sources select (a source word is read signed
  and clamped into the table), applies a linear map to the mean, adds the bias and a second linear map of the
  node's own row; the first layer ends in a rectifier.

  The two arrangements differ in the order of three additions, and in the second layer: one averages the hidden
  rows and then contracts the mean with the weights; the other contracts every hidden row with the weights first
  and averages the 64-wide products. Contraction, sum over edges and division by the degree commute on real
  entries (distributivity), so the arrangements agree when the features and the first layer's weights are real.
-/
import Idealize.ShloMosaic.PureOps.Ideal
import Idealize.ShloMosaic.Lib.ValueIdx
import proofs.«178504_j42391327211901_2_alg».proof.Proof.LibGnnLaws

noncomputable section

open scoped BigOperators

namespace Cert.Sage

open Idealize.ShloMosaic Idealize.ShloMosaic.ValueIdx Cert.Lib.GnnLaws

/-! ## An array as a table -/

/-- An `[A, B]` array as the table of its entries. -/
def tab {α : Type} {A B : Nat} (X : (⟨2, ![A, B]⟩ : Shape).Idx → α) (a : Fin A) (b : Fin B) : α := X (ix2 a b)

/-- An `[A]` array as the list of its entries. -/
def vec {α : Type} {A : Nat} (v : (⟨1, ![A]⟩ : Shape).Idx → α) (a : Fin A) : α := v (ix1 a)

/-- An `[A, 1]` column as the list of its entries. -/
def col {α : Type} {A : Nat} (v : (⟨2, ![A, 1]⟩ : Shape).Idx → α) (a : Fin A) : α := v (ix2 a (0 : Fin 1))

/-- A `[1, B]` row as the list of its entries. -/
def rowv {α : Type} {B : Nat} (v : (⟨2, ![1, B]⟩ : Shape).Idx → α) (b : Fin B) : α := v (ix2 (0 : Fin 1) b)

/-! ## The graph -/

/-- The table row an index word selects: read signed, clamped into the 100000 rows. -/
def row (w : BitVec 32) : Fin 100000 := ⟨min w.toInt.toNat 99999, by omega⟩

/-- The edges into node `n`: those whose destination word, read signed, is `n`. -/
def into (dst : Fin 1600000 → BitVec 32) (n : Fin 100000) : Finset (Fin 1600000) :=
  Finset.univ.filter fun e => (dst e).toInt = (n.val : Int)

/-- The degree of node `n`, at least one. -/
def deg (dst : Fin 1600000 → BitVec 32) (n : Fin 100000) : EReal :=
  max (0 + ∑ _e ∈ into dst n, (1 : EReal)) 1

/-- Column `g` of the rows the sources of the edges into `n` select, summed. -/
def agg {C : Nat} (src dst : Fin 1600000 → BitVec 32) (X : Fin 100000 → Fin C → EReal) (n : Fin 100000) (g : Fin C) : EReal :=
  0 + ∑ e ∈ into dst n, X (row (src e)) g

/-! ## One arrangement: bias before the node's own term, the mean contracted -/

/-- A layer: the mean of the summed rows `A` by the degree `D`, contracted with `Wl`, plus the bias, plus the node's
    own row contracted with `Wr`. -/
def layerR {K C : Nat} (A : Fin 100000 → Fin K → EReal) (D : Fin 100000 → EReal) (X : Fin 100000 → Fin K → EReal)
    (Wl : Fin K → Fin C → EReal) (b : Fin C → EReal) (Wr : Fin K → Fin C → EReal) (n : Fin 100000) (j : Fin C) : EReal :=
  (∑ k, Ideal.div (A n k) (D n) * Wl k j) + b j + ∑ k, X n k * Wr k j

def hidR (src dst : Fin 1600000 → BitVec 32) (x : Fin 100000 → Fin 128 → EReal) (W1l : Fin 128 → Fin 128 → EReal)
    (b1 : Fin 128 → EReal) (W1r : Fin 128 → Fin 128 → EReal) (n : Fin 100000) (j : Fin 128) : EReal :=
  max (layerR (agg src dst x) (deg dst) x W1l b1 W1r n j) 0

def outR (src dst : Fin 1600000 → BitVec 32) (x : Fin 100000 → Fin 128 → EReal) (W1l : Fin 128 → Fin 128 → EReal)
    (b1 : Fin 128 → EReal) (W1r : Fin 128 → Fin 128 → EReal) (W2l : Fin 128 → Fin 64 → EReal) (b2 : Fin 64 → EReal)
    (W2r : Fin 128 → Fin 64 → EReal) (n : Fin 100000) (o : Fin 64) : EReal :=
  layerR (agg src dst (hidR src dst x W1l b1 W1r)) (deg dst) (hidR src dst x W1l b1 W1r) W2l b2 W2r n o

/-! ## The other arrangement: three tiled stages -/

/-- First stage: from the summed rows `A`, the degree `D` and the node's own row, the rectified hidden row. -/
def lin1K (A : Fin 100000 → Fin 128 → EReal) (D : Fin 100000 → EReal) (X : Fin 100000 → Fin 128 → EReal)
    (W1l : Fin 128 → Fin 128 → EReal) (b1 : Fin 128 → EReal) (W1r : Fin 128 → Fin 128 → EReal) (n : Fin 100000) (j : Fin 128) : EReal :=
  max (((∑ k, Ideal.div (A n k) (D n) * W1l k j) + ∑ k, X n k * W1r k j) + b1 j) 0

/-- Its second output: the hidden row contracted with the second layer's aggregation weights. -/
def projK (H : Fin 100000 → Fin 128 → EReal) (W2l : Fin 128 → Fin 64 → EReal) (n : Fin 100000) (o : Fin 64) : EReal :=
  ∑ k, H n k * W2l k o

/-- Last stage: the node's own hidden row contracted with `W2r`, plus the mean of the summed 64-wide products `A2`,
    plus the bias. -/
def lin2K (H : Fin 100000 → Fin 128 → EReal) (A2 : Fin 100000 → Fin 64 → EReal) (D : Fin 100000 → EReal)
    (W2r : Fin 128 → Fin 64 → EReal) (b2 : Fin 64 → EReal) (n : Fin 100000) (o : Fin 64) : EReal :=
  ((∑ k, H n k * W2r k o) + Ideal.div (A2 n o) (D n)) + b2 o

def hidK (src dst : Fin 1600000 → BitVec 32) (x : Fin 100000 → Fin 128 → EReal) (W1l : Fin 128 → Fin 128 → EReal)
    (b1 : Fin 128 → EReal) (W1r : Fin 128 → Fin 128 → EReal) : Fin 100000 → Fin 128 → EReal :=
  lin1K (agg src dst x) (deg dst) x W1l b1 W1r

def outK (src dst : Fin 1600000 → BitVec 32) (x : Fin 100000 → Fin 128 → EReal) (W1l : Fin 128 → Fin 128 → EReal)
    (b1 : Fin 128 → EReal) (W1r : Fin 128 → Fin 128 → EReal) (W2l : Fin 128 → Fin 64 → EReal) (b2 : Fin 64 → EReal)
    (W2r : Fin 128 → Fin 64 → EReal) : Fin 100000 → Fin 64 → EReal :=
  lin2K (hidK src dst x W1l b1 W1r) (agg src dst (projK (hidK src dst x W1l b1 W1r) W2l)) (deg dst) W2r b2

/-! ## The two agree -/

/-- The hidden rows agree whatever the entries: only the order of two additions differs. -/
theorem hidK_eq_hidR (src dst : Fin 1600000 → BitVec 32) (x : Fin 100000 → Fin 128 → EReal) (W1l : Fin 128 → Fin 128 → EReal)
    (b1 : Fin 128 → EReal) (W1r : Fin 128 → Fin 128 → EReal) : hidK src dst x W1l b1 W1r = hidR src dst x W1l b1 W1r := by
  funext n j
  unfold hidK hidR lin1K layerR
  rw [add_right_comm]

/-- The degree is a nonzero real. -/
theorem deg_real (dst : Fin 1600000 → BitVec 32) (n : Fin 100000) : ∃ d : ℝ, d ≠ 0 ∧ deg dst n = (d : EReal) := by
  refine ⟨max ((into dst n).card : ℝ) 1, ?_, ?_⟩
  · have h : (1 : ℝ) ≤ max ((into dst n).card : ℝ) 1 := le_max_right _ _
    intro h0; rw [h0] at h; norm_num at h
  · unfold deg
    have hs : (∑ _e ∈ into dst n, (1 : EReal)) = (((into dst n).card : ℝ) : EReal) := by
      have := coe_sum (into dst n) (fun _ => (1 : ℝ))
      rw [Finset.sum_const, nsmul_eq_mul, mul_one] at this
      rw [this]; rfl
    rw [zero_add, hs]
    rcases le_total ((into dst n).card : ℝ) 1 with h | h
    · rw [max_eq_right h, max_eq_right (by exact_mod_cast h)]; rfl
    · rw [max_eq_left h, max_eq_left (by exact_mod_cast h)]

/-- The summed rows of a real table are real. -/
theorem agg_isReal {C : Nat} (src dst : Fin 1600000 → BitVec 32) (X : Fin 100000 → Fin C → EReal) (hX : ∀ n g, IsReal (X n g))
    (n : Fin 100000) (g : Fin C) : IsReal (agg src dst X n g) :=
  IsReal.zero.add (IsReal.sum _ _ fun e _ => hX (row (src e)) g)

/-- The hidden rows of real features under real weights are real. -/
theorem hidR_isReal (src dst : Fin 1600000 → BitVec 32) (x : Fin 100000 → Fin 128 → EReal) (W1l : Fin 128 → Fin 128 → EReal)
    (b1 : Fin 128 → EReal) (W1r : Fin 128 → Fin 128 → EReal) (hx : ∀ n k, IsReal (x n k)) (hl : ∀ k j, IsReal (W1l k j))
    (hb : ∀ j, IsReal (b1 j)) (hr : ∀ k j, IsReal (W1r k j)) (n : Fin 100000) (j : Fin 128) :
    IsReal (hidR src dst x W1l b1 W1r n j) := by
  obtain ⟨d, hd, hdeg⟩ := deg_real dst n
  unfold hidR layerR
  refine IsReal.relu (((IsReal.sum _ _ fun k _ => ?_).add (hb j)).add (IsReal.sum _ _ fun k _ => (hx n k).mul (hr k j)))
  rw [hdeg]
  exact ((agg_isReal src dst x hx n k).div_coe hd).mul (hl k j)

/-- On real tables, contracting the mean is averaging the contractions. -/
theorem mean_contract (S : Finset (Fin 1600000)) (r : Fin 1600000 → Fin 128 → ℝ) (w : Fin 128 → ℝ) (d : ℝ) (hd : d ≠ 0) :
    ∑ k, Ideal.div (0 + ∑ e ∈ S, (r e k : EReal)) (d : EReal) * (w k : EReal)
      = Ideal.div (0 + ∑ e ∈ S, ∑ k, (r e k : EReal) * (w k : EReal)) (d : EReal) := by
  have hreal : ∑ k, ((∑ e ∈ S, r e k) * (1 / d)) * w k = (∑ e ∈ S, ∑ k, r e k * w k) * (1 / d) := by
    rw [Finset.sum_comm, Finset.sum_mul]
    refine Finset.sum_congr rfl fun k _ => ?_
    rw [Finset.sum_mul, Finset.sum_mul, Finset.sum_mul]
    exact Finset.sum_congr rfl fun e _ => by ring
  simp only [Ideal.div_coe hd, zero_add, ← EReal.coe_mul, ← coe_sum]
  exact congrArg _ hreal

/-- THE LAW: on real features and real first-layer and aggregation weights the two arrangements agree. -/
theorem outK_eq_outR (src dst : Fin 1600000 → BitVec 32) (x : Fin 100000 → Fin 128 → EReal) (W1l : Fin 128 → Fin 128 → EReal)
    (b1 : Fin 128 → EReal) (W1r : Fin 128 → Fin 128 → EReal) (W2l : Fin 128 → Fin 64 → EReal) (b2 : Fin 64 → EReal)
    (W2r : Fin 128 → Fin 64 → EReal) (hx : ∀ n k, IsReal (x n k)) (hl : ∀ k j, IsReal (W1l k j))
    (hb : ∀ j, IsReal (b1 j)) (hr : ∀ k j, IsReal (W1r k j)) (hl2 : ∀ k o, IsReal (W2l k o)) :
    outK src dst x W1l b1 W1r W2l b2 W2r = outR src dst x W1l b1 W1r W2l b2 W2r := by
  funext n o
  unfold outK outR lin2K layerR
  rw [hidK_eq_hidR]
  obtain ⟨h', hh'⟩ := exists_real_fun₂ (hidR src dst x W1l b1 W1r) (hidR_isReal src dst x W1l b1 W1r hx hl hb hr)
  obtain ⟨w', hw'⟩ := exists_real_fun (fun k => W2l k o) (fun k => hl2 k o)
  obtain ⟨d, hd, hdeg⟩ := deg_real dst n
  have key : (∑ k, Ideal.div (agg src dst (hidR src dst x W1l b1 W1r) n k) (deg dst n) * W2l k o)
      = Ideal.div (agg src dst (projK (hidR src dst x W1l b1 W1r) W2l) n o) (deg dst n) := by
    unfold agg projK
    rw [hdeg]
    simp only [hh']
    have hw : ∀ k, W2l k o = (w' k : EReal) := hw'
    simp only [hw]
    exact mean_contract (into dst n) (fun e k => h' (row (src e)) k) w' d hd
  rw [key]
  rw [add_comm (∑ k, hidR src dst x W1l b1 W1r n k * W2r k o), add_right_comm]

end Cert.Sage

end
-- ==== Proof.LibScatterGather.lean ====
/-
  A gather and an accumulating scatter along the leading axis, read at an index.

  `x[idx]` of an array `x` at an integer array `idx : [E]` lowers to a gather whose start indices are printed
  `[E, 1]` (the index vector on axis 1): of a flat array `[N]` the result's element `e` is `x` at the start index
  `idx[e, 0]` read signed and clamped into `[0, N − 1]`; of a matrix `[N, C]` the result's element `(e, f)` is
  `x` at that row and column `f`. The accumulating scatter with the same index array (a segment sum) adds update
  `e` (update `(e, f)` into column `f`) at the row `idx[e, 0]` read signed and NOT clamped: an update whose row
  is outside `[0, N)` is dropped. On the extended reals the scatter's value at a row is therefore the operand
  plus the sum of the updates whose index word is that row.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## The gathers -/

section Gather
variable {α : Type}

/-- The dimension numbers of `x[idx]` for a flat operand `[N]`, start indices `[E, 1]` and result `[E]`. -/
abbrev take1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at the start index `idx[e, 0]`, read signed and clamped. -/
theorem gather_take1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (take1Dims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (take1Dims N E wf).start (ix1 e) idx 0 + (take1Dims N E wf).batchCoord (ix1 e) 0
    + (take1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N E wf).startIndexMap from List.mem_singleton.mpr rfl)]
  have hsi : (take1Dims N E wf).siIdx (ix1 e) ⟨List.idxOf (0 : Fin 1) (take1Dims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of `x[idx]` for a matrix operand `[N, C]`, start indices `[E, 1]` and result `[E, C]`. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rows_coord0 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (0 : Fin 2) + (rowsDims N C E wf).batchCoord (ix2 e f) (0 : Fin 2)
      + (rowsDims N C E wf).offCoord (ix2 e f) (0 : Fin 2) = min (idx (ix2 e (0 : Fin 1))).toInt.toNat (N - 1) := by
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsDims N C E wf).startIndexMap from List.mem_singleton.mpr rfl)]
  have hsi : (rowsDims N C E wf).siIdx (ix2 e f) ⟨List.idxOf (0 : Fin 2) (rowsDims N C E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rows_coord1 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (1 : Fin 2) + (rowsDims N C E wf).batchCoord (ix2 e f) (1 : Fin 2)
      + (rowsDims N C E wf).offCoord (ix2 e f) (1 : Fin 2) = f.val := by
  rw [GatherDims.batchCoord_eq_zero _ _ _ List.not_mem_nil, Nat.add_zero]
  have hs : (rowsDims N C E wf).start (ix2 e f) idx (1 : Fin 2) = 0 := by
    unfold GatherDims.start
    rw [dif_neg (show (1 : Fin 2) ∉ [(0 : Fin 2)] by decide)]
  have ho : (rowsDims N C E wf).offCoord (ix2 e f) (1 : Fin 2) = f.val := by
    unfold GatherDims.offCoord
    rw [dif_pos ((GatherDims.mem_sKept _ _).2 ⟨(show (1 : Fin 2) ∉ [(0 : Fin 2)] by decide), List.not_mem_nil⟩)]
    rfl
  rw [hs, ho, Nat.zero_add]

/-- The row gather read at `(e, f)`: the operand at the row `idx[e, 0]`, read signed and clamped, and column `f`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowsDims N C E wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ => exact rows_coord0 wf idx e f
  | ⟨1, _⟩ => exact rows_coord1 wf idx e f

end Gather

/-! ## The accumulating scatters -/

section Scatter

/-- The dimension numbers of `x.at[idx].add(u)` for a flat operand `[N]`, scatter indices `[E, 1]`, updates `[E]`. -/
abbrev scat1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem scat1_start {N E w : Nat} (wf : ScatterDims.WF ⟨1, ![N]⟩ ⟨2, ![E, 1]⟩ ⟨1, ![E]⟩ [] [0] [0] 1)
    (idx : IVec ⟨2, ![E, 1]⟩ w) (e : Fin E) :
    (scat1Dims N E wf).start (ix1 e) idx (0 : Fin 1) = (idx (ix2 e (0 : Fin 1))).toInt := by
  unfold ScatterDims.start
  rw [dif_pos (show (0 : Fin 1) ∈ (scat1Dims N E wf).scatterDimsToOperandDims from List.mem_singleton.mpr rfl)]
  have hsi : (scat1Dims N E wf).siIdx (ix1 e) ⟨List.idxOf (0 : Fin 1) (scat1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scat1_window {N E : Nat} (wf : ScatterDims.WF ⟨1, ![N]⟩ ⟨2, ![E, 1]⟩ ⟨1, ![E]⟩ [] [0] [0] 1) (e : Fin E) :
    (scat1Dims N E wf).window (ix1 e) (0 : Fin 1) = 0 := by
  unfold ScatterDims.window
  rw [dif_neg (show (0 : Fin 1) ∉ (scat1Dims N E wf).sKept by simp [ScatterDims.sKept, Shape.kept])]

/-- Update `e` of the flat scatter lands on row `n` exactly when its index word, read signed, is `n`. -/
theorem scat1_resultIdx?_eq_some_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (scat1Dims N E wf).resultIdx? (ix1 e) idx = some (ix1 n) ↔ (idx (ix2 e (0 : Fin 1))).toInt = (n.val : Int) := by
  unfold ScatterDims.resultIdx?
  constructor
  · intro h
    split at h
    · rename_i hr
      have h0 := congrFun (Option.some.inj h) (0 : Fin 1)
      have hv := congrArg Fin.val h0
      have hr0 := hr (0 : Fin 1)
      rw [scat1_start, scat1_window] at hr0
      simp only [scat1_start, scat1_window] at hv
      change ((idx (ix2 e (0 : Fin 1))).toInt + ((0 : Nat) : Int)).toNat = n.val at hv
      omega
    · exact absurd h (by simp)
  · intro hv
    have hr : ∀ a, 0 ≤ (scat1Dims N E wf).start (ix1 e) idx a + ((scat1Dims N E wf).window (ix1 e) a : Int)
        ∧ (scat1Dims N E wf).start (ix1 e) idx a + ((scat1Dims N E wf).window (ix1 e) a : Int) < ((⟨1, ![N]⟩ : Shape).size a : Int) := by
      intro a
      obtain rfl : a = 0 := Subsingleton.elim _ _
      rw [scat1_start, scat1_window, hv]
      have := n.isLt
      change (0 : Int) ≤ (n.val : Int) + ((0 : Nat) : Int) ∧ (n.val : Int) + ((0 : Nat) : Int) < (N : Int)
      omega
    rw [dif_pos hr]
    congr 1
    funext a
    obtain rfl : a = 0 := Subsingleton.elim _ _
    refine Fin.ext ?_
    show ((scat1Dims N E wf).start (ix1 e) idx 0 + ((scat1Dims N E wf).window (ix1 e) 0 : Int)).toNat = n.val
    rw [scat1_start, scat1_window, hv]
    omega

/-- The dimension numbers of `x.at[idx].add(u)` for a matrix operand `[N, C]`, scatter indices `[E, 1]`, updates `[E, C]`. -/
abbrev scatRowsDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem scatRows_start0 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (0 : Fin 2) = (idx (ix2 e (0 : Fin 1))).toInt := by
  unfold ScatterDims.start
  rw [dif_pos (show (0 : Fin 2) ∈ (scatRowsDims N C E wf).scatterDimsToOperandDims from List.mem_singleton.mpr rfl)]
  have hsi : (scatRowsDims N C E wf).siIdx (ix2 e f) ⟨List.idxOf (0 : Fin 2) (scatRowsDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatRows_start1 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (1 : Fin 2) = 0 := by
  unfold ScatterDims.start
  rw [dif_neg (show (1 : Fin 2) ∉ [(0 : Fin 2)] by decide)]

theorem scatRows_window0 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (0 : Fin 2) = 0 := by
  unfold ScatterDims.window
  rw [dif_neg (show (0 : Fin 2) ∉ (scatRowsDims N C E wf).sKept by simp [ScatterDims.sKept, Shape.kept])]

theorem scatRows_window1 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (1 : Fin 2) = f.val := by
  unfold ScatterDims.window
  rw [dif_pos (show (1 : Fin 2) ∈ (scatRowsDims N C E wf).sKept by simp [ScatterDims.sKept, Shape.kept])]
  rfl

/-- Update `(e, f)` of the row scatter lands on `(n, g)` exactly when its index word, read signed, is `n` and `f = g`. -/
theorem scatRows_resultIdx?_eq_some_iff {N C E w : Nat}
    (wf : ScatterDims.WF ⟨2, ![N, C]⟩ ⟨2, ![E, 1]⟩ ⟨2, ![E, C]⟩ [1] [0] [0] 1)
    (idx : IVec ⟨2, ![E, 1]⟩ w) (e : Fin E) (f : Fin C) (n : Fin N) (g : Fin C) :
    (scatRowsDims N C E wf).resultIdx? (ix2 e f) idx = some (ix2 n g)
      ↔ (idx (ix2 e (0 : Fin 1))).toInt = (n.val : Int) ∧ f = g := by
  unfold ScatterDims.resultIdx?
  constructor
  · intro h
    split at h
    · rename_i hr
      have hfun := Option.some.inj h
      have hv0 := congrArg Fin.val (congrFun hfun (0 : Fin 2))
      have hv1 := congrArg Fin.val (congrFun hfun (1 : Fin 2))
      have hr0 := hr (0 : Fin 2)
      rw [scatRows_start0, scatRows_window0] at hr0
      simp only [scatRows_start0, scatRows_window0] at hv0
      simp only [scatRows_start1, scatRows_window1] at hv1
      change ((idx (ix2 e (0 : Fin 1))).toInt + ((0 : Nat) : Int)).toNat = n.val at hv0
      change ((0 : Int) + ((f.val : Nat) : Int)).toNat = g.val at hv1
      refine ⟨by omega, Fin.ext (by omega)⟩
    · exact absurd h (by simp)
  · rintro ⟨hv, rfl⟩
    have hr : ∀ a, 0 ≤ (scatRowsDims N C E wf).start (ix2 e f) idx a + ((scatRowsDims N C E wf).window (ix2 e f) a : Int)
        ∧ (scatRowsDims N C E wf).start (ix2 e f) idx a + ((scatRowsDims N C E wf).window (ix2 e f) a : Int)
            < ((⟨2, ![N, C]⟩ : Shape).size a : Int) := by
      intro a
      match a with
      | ⟨0, _⟩ =>
        have := n.isLt
        change 0 ≤ (scatRowsDims N C E wf).start (ix2 e f) idx (0 : Fin 2) + ((scatRowsDims N C E wf).window (ix2 e f) (0 : Fin 2) : Int)
          ∧ (scatRowsDims N C E wf).start (ix2 e f) idx (0 : Fin 2) + ((scatRowsDims N C E wf).window (ix2 e f) (0 : Fin 2) : Int) < (N : Int)
        rw [scatRows_start0, scatRows_window0, hv]
        omega
      | ⟨1, _⟩ =>
        have := f.isLt
        change 0 ≤ (scatRowsDims N C E wf).start (ix2 e f) idx (1 : Fin 2) + ((scatRowsDims N C E wf).window (ix2 e f) (1 : Fin 2) : Int)
          ∧ (scatRowsDims N C E wf).start (ix2 e f) idx (1 : Fin 2) + ((scatRowsDims N C E wf).window (ix2 e f) (1 : Fin 2) : Int) < (C : Int)
        rw [scatRows_start1, scatRows_window1]
        omega
    rw [dif_pos hr]
    congr 1
    funext a
    refine Fin.ext ?_
    match a with
    | ⟨0, _⟩ =>
      show ((scatRowsDims N C E wf).start (ix2 e f) idx (0 : Fin 2) + ((scatRowsDims N C E wf).window (ix2 e f) (0 : Fin 2) : Int)).toNat = n.val
      rw [scatRows_start0, scatRows_window0, hv]
      omega
    | ⟨1, _⟩ =>
      show ((scatRowsDims N C E wf).start (ix2 e f) idx (1 : Fin 2) + ((scatRowsDims N C E wf).window (ix2 e f) (1 : Fin 2) : Int)).toNat = f.val
      rw [scatRows_start1, scatRows_window1]
      omega

/-! ## The scatters' values on the extended reals -/

/-- A flat index is its one coordinate. -/
def idxEquiv1 {n : Nat} : (⟨1, ![n]⟩ : Shape).Idx ≃ Fin n where
  toFun j := j 0
  invFun := ix1
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Equiv.sum_comp (idxEquiv1 (n := n)).symm f).symm

/-- The flat accumulating scatter at row `n`: the operand plus the updates whose index word is `n`. -/
theorem scatterAdd1_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (scat1Dims N E wf) x idx upd (ix1 n)
      = x (ix1 n) + ∑ e ∈ Finset.univ.filter (fun e : Fin E => (idx (ix2 e (0 : Fin 1))).toInt = (n.val : Int)), upd (ix1 e) := by
  show Ideal.hostScatterAdd (scat1Dims N E wf) x idx upd (ix1 n) = _
  unfold Ideal.hostScatterAdd
  congr 1
  rw [Finset.sum_filter, Finset.sum_filter, sum_idx1]
  exact Finset.sum_congr rfl fun e _ => if_congr (scat1_resultIdx?_eq_some_iff wf idx e n) rfl rfl

/-- The row accumulating scatter at `(n, g)`: the operand plus column `g` of the updates whose index word is `n`. -/
theorem scatterAddRows_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (g : Fin C) :
    Host.scatterAdd (scatRowsDims N C E wf) x idx upd (ix2 n g)
      = x (ix2 n g) + ∑ e ∈ Finset.univ.filter (fun e : Fin E => (idx (ix2 e (0 : Fin 1))).toInt = (n.val : Int)), upd (ix2 e g) := by
  show Ideal.hostScatterAdd (scatRowsDims N C E wf) x idx upd (ix2 n g) = _
  unfold Ideal.hostScatterAdd
  congr 1
  rw [Finset.sum_filter, Finset.sum_filter, sum_idx2]
  refine Finset.sum_congr rfl fun e _ => ?_
  have h : ∀ f : Fin C, (if (scatRowsDims N C E wf).resultIdx? (ix2 e f) idx = some (ix2 n g) then upd (ix2 e f) else 0)
      = if f = g then (if (idx (ix2 e (0 : Fin 1))).toInt = (n.val : Int) then upd (ix2 e f) else 0) else 0 := by
    intro f
    rw [if_congr (scatRows_resultIdx?_eq_some_iff wf idx e f n g) rfl rfl]
    by_cases hf : f = g
    · rw [if_pos hf]; exact if_congr (and_iff_left hf) rfl rfl
    · rw [if_neg hf, if_neg (fun h => hf h.2)]
  rw [Finset.sum_congr rfl fun f _ => h f, Finset.sum_ite_eq' Finset.univ g]
  rw [if_pos (Finset.mem_univ g)]

end Scatter

end Cert.Lib.ScatterGather

end
-- ==== Proof.RefValue.lean ====
/-
  The reference's result, read at an index, is the specification's first arrangement.

  The reference computes each layer on the host: it gathers the rows the source words select, adds them at the
  rows the destination words name (an accumulating scatter into a zero table), counts the edges into each node
  the same way (an accumulating scatter of ones into a zero list) and takes the larger of the count and one,
  divides, contracts the mean with the aggregation weights, adds the bias and the node's own row contracted with
  the root weights; the first layer ends in a rectifier. Read at a node `n` and a column, every one of these
  stages is the corresponding term of the specification: the scatter of the gathered rows is the sum over the
  edges into `n` of the selected rows, the scatter of ones is the number of those edges, and the rest is pointwise.
-/
import proofs.«178504_j42391327211901_2_alg».proof.Proof.Gen.ReferenceIdeal.Read
import proofs.«178504_j42391327211901_2_alg».proof.Proof.Spec
import proofs.«178504_j42391327211901_2_alg».proof.Proof.LibScatterGather
import proofs.«178504_j42391327211901_2_alg».proof.Proof.LibGnnLaws
import Idealize.ShloMosaic.Lib.ValueIdx
import Idealize.ShloMosaic.Lib.Pipeline.Value
import Idealize.ShloMosaic.PureOps.Ideal.Laws

noncomputable section

open scoped BigOperators

namespace Cert.Sage.Ref

open Cert.ReferenceIdeal Cert.ReferenceIdeal.Gen Cert.ReferenceIdeal.Read Cert.Sage Cert.Lib.ScatterGather Cert.Lib.GnnLaws
open Idealize.ShloMosaic Idealize.ShloMosaic.ValueIdx

/-! ## The printed dimension records are the row gather and the two accumulating scatters -/

theorem gatherDims_eq :
    gather_S100000x128_S1600000x1_S1600000x128_1_0_n_n_0_1_1128
      = rowsDims 100000 128 1600000 gather_S100000x128_S1600000x1_S1600000x128_1_0_n_n_0_1_1128_wf := by
  unfold gather_S100000x128_S1600000x1_S1600000x128_1_0_n_n_0_1_1128
  rfl

theorem scatRowsDims_eq :
    scatter_S100000x128_S1600000x1_S1600000x128_1_0_0_1
      = scatRowsDims 100000 128 1600000 scatter_S100000x128_S1600000x1_S1600000x128_1_0_0_1_wf := by
  unfold scatter_S100000x128_S1600000x1_S1600000x128_1_0_0_1
  rfl

theorem scat1Dims_eq :
    scatter_S100000_S1600000x1_S1600000_n_0_0_1
      = scat1Dims 100000 1600000 scatter_S100000_S1600000x1_S1600000_n_0_0_1_wf := by
  unfold scatter_S100000_S1600000x1_S1600000_n_0_0_1
  rfl

/-! ## The constant tables -/

theorem zero_tab (i : S100000x128.Idx) : val_main_v11 (F := Ideal) i = 0 := by
  rw [val_main_v11_apply, val_main_cst_apply]; exact ofBits_zero

theorem zero_tab' (i : S100000x128.Idx) : val_main_v41 (F := Ideal) i = 0 := by
  rw [val_main_v41_apply, val_main_cst_6_apply]; exact ofBits_zero

theorem zero_list (i : S100000.Idx) : val_main_v15 (F := Ideal) i = 0 := by
  rw [val_main_v15_apply, val_main_cst_2_apply]; exact ofBits_zero

theorem zero_list' (i : S100000.Idx) : val_main_v45 (F := Ideal) i = 0 := by
  rw [val_main_v45_apply, val_main_cst_8_apply]; exact ofBits_zero

theorem one_edges (i : S1600000.Idx) : val_main_v14 (F := Ideal) i = 1 := by
  rw [val_main_v14_apply, val_main_cst_1_apply]; exact ofBits_one

theorem one_edges' (i : S1600000.Idx) : val_main_v44 (F := Ideal) i = 1 := by
  rw [val_main_v44_apply, val_main_cst_7_apply]; exact ofBits_one

theorem one_list (i : S100000.Idx) : val_main_v18 (F := Ideal) i = 1 := by
  rw [val_main_v18_apply, val_main_cst_3_apply]; exact ofBits_one

theorem one_list' (i : S100000.Idx) : val_main_v48 (F := Ideal) i = 1 := by
  rw [val_main_v48_apply, val_main_cst_9_apply]; exact ofBits_one

theorem zero_relu (i : S100000x128.Idx) : val_main_call0_v0 (F := Ideal) i = 0 := by
  rw [val_main_call0_v0_apply, val_main_call0_cst_apply]; exact ofBits_zero

/-! ## The summed rows and the degree -/

/-- Gathering the rows of a table `X` that the source words select and adding them, into a table that is zero at
    `(n, g)`, at the rows the destination words name: at `(n, g)` this is column `g` of the selected rows, summed
    over the edges into `n`. -/
theorem agg_read (Z X : FVec Ideal S100000x128 .f32) (src dst : IVec S1600000x1 32) (n : Fin 100000) (g : Fin 128)
    (hZ : Z (ix2 n g) = 0) :
    Host.scatterAdd (F := Ideal) scatter_S100000x128_S1600000x1_S1600000x128_1_0_0_1 Z dst
        (Host.gather gather_S100000x128_S1600000x1_S1600000x128_1_0_n_n_0_1_1128 X src) (ix2 n g)
      = agg (col src) (col dst) (tab X) n g := by
  rw [scatRowsDims_eq, gatherDims_eq]
  refine (scatterAddRows_apply _ Z dst _ n g).trans ?_
  rw [hZ]
  unfold agg into
  refine congrArg (fun t => (0 : EReal) + t) (Finset.sum_congr rfl fun e _ => ?_)
  exact gather_rows_apply (by omega) _ X src e g

/-- Adding a one for every edge at the row its destination word names, into a list that is zero at `n`, and taking
    the larger of the result and one: the degree of `n`. -/
theorem deg_read (Z W : FVec Ideal S100000 .f32) (O : FVec Ideal S1600000 .f32) (dst : IVec S1600000x1 32) (n : Fin 100000)
    (hZ : Z (ix1 n) = 0) (hO : ∀ e : Fin 1600000, O (ix1 e) = 1) (hW : W (ix1 n) = 1) :
    max (Host.scatterAdd (F := Ideal) scatter_S100000_S1600000x1_S1600000_n_0_0_1 Z dst O (ix1 n)) (W (ix1 n))
      = deg (col dst) n := by
  rw [scat1Dims_eq, hW]
  unfold deg into
  refine congrArg (fun t => max t (1 : EReal)) ?_
  refine (scatterAdd1_apply _ Z dst O n).trans ?_
  rw [hZ]
  exact congrArg (fun t => (0 : EReal) + t) (Finset.sum_congr rfl fun e _ => hO e)

/-! ## The index arrays of the second layer are those of the first -/

theorem src_again (x1 : (⟨S2x1600000, .i32⟩ : BufTy).Contents (Elt Ideal)) :
    val_main_v39 (F := Ideal) x1 = val_main_v9 (F := Ideal) x1 := rfl

theorem dst_count (x1 : (⟨S2x1600000, .i32⟩ : BufTy).Contents (Elt Ideal)) :
    val_main_v16 (F := Ideal) x1 = val_main_v12 (F := Ideal) x1 := rfl

theorem dst_again (x1 : (⟨S2x1600000, .i32⟩ : BufTy).Contents (Elt Ideal)) :
    val_main_v42 (F := Ideal) x1 = val_main_v12 (F := Ideal) x1 := rfl

theorem dst_count_again (x1 : (⟨S2x1600000, .i32⟩ : BufTy).Contents (Elt Ideal)) :
    val_main_v46 (F := Ideal) x1 = val_main_v12 (F := Ideal) x1 := rfl

/-! ## The indices the stages read at -/

theorem idx21_eq (n : Fin 100000) (k : Fin 128) : idx_main_v21 (ix2 n k) = ix2 n (0 : Fin 1) :=
  funext fun a => Fin.ext (by match a with | ⟨0, _⟩ => rfl | ⟨1, _⟩ => rfl)

theorem idx20_eq (n : Fin 100000) : idx_main_v20 (ix2 n (0 : Fin 1)) = ix1 n :=
  funext fun a => Fin.ext (by match a with | ⟨0, _⟩ => rfl)

theorem lidx23_eq (n : Fin 100000) (j k : Fin 128) : lidx_main_v23 (ix2 n j) k = ix2 n k :=
  funext fun a => Fin.ext (by match a with | ⟨0, _⟩ => rfl | ⟨1, _⟩ => rfl)

theorem ridx23_eq (n : Fin 100000) (j k : Fin 128) : ridx_main_v23 (ix2 n j) k = ix2 k j :=
  funext fun a => Fin.ext (by match a with | ⟨0, _⟩ => rfl | ⟨1, _⟩ => rfl)

theorem idx25_eq (n : Fin 100000) (j : Fin 128) : idx_main_v25 (ix2 n j) = ix2 (0 : Fin 1) j :=
  funext fun a => Fin.ext (by match a with | ⟨0, _⟩ => rfl | ⟨1, _⟩ => rfl)

theorem idx24_eq (j : Fin 128) : idx_main_v24 (ix2 (0 : Fin 1) j) = ix1 j :=
  funext fun a => Fin.ext (by match a with | ⟨0, _⟩ => rfl)

theorem lidx27_eq (n : Fin 100000) (j k : Fin 128) : lidx_main_v27 (ix2 n j) k = ix2 n k :=
  funext fun a => Fin.ext (by match a with | ⟨0, _⟩ => rfl | ⟨1, _⟩ => rfl)

theorem ridx27_eq (n : Fin 100000) (j k : Fin 128) : ridx_main_v27 (ix2 n j) k = ix2 k j :=
  funext fun a => Fin.ext (by match a with | ⟨0, _⟩ => rfl | ⟨1, _⟩ => rfl)

theorem idx51_eq (n : Fin 100000) (k : Fin 128) : idx_main_v51 (ix2 n k) = ix2 n (0 : Fin 1) :=
  funext fun a => Fin.ext (by match a with | ⟨0, _⟩ => rfl | ⟨1, _⟩ => rfl)

theorem idx50_eq (n : Fin 100000) : idx_main_v50 (ix2 n (0 : Fin 1)) = ix1 n :=
  funext fun a => Fin.ext (by match a with | ⟨0, _⟩ => rfl)

theorem lidx53_eq (n : Fin 100000) (o : Fin 64) (k : Fin 128) : lidx_main_v53 (ix2 n o) k = ix2 n k :=
  funext fun a => Fin.ext (by match a with | ⟨0, _⟩ => rfl | ⟨1, _⟩ => rfl)

theorem ridx53_eq (n : Fin 100000) (o : Fin 64) (k : Fin 128) : ridx_main_v53 (ix2 n o) k = ix2 k o :=
  funext fun a => Fin.ext (by match a with | ⟨0, _⟩ => rfl | ⟨1, _⟩ => rfl)

theorem idx55_eq (n : Fin 100000) (o : Fin 64) : idx_main_v55 (ix2 n o) = ix2 (0 : Fin 1) o :=
  funext fun a => Fin.ext (by match a with | ⟨0, _⟩ => rfl | ⟨1, _⟩ => rfl)

theorem idx54_eq (o : Fin 64) : idx_main_v54 (ix2 (0 : Fin 1) o) = ix1 o :=
  funext fun a => Fin.ext (by match a with | ⟨0, _⟩ => rfl)

theorem lidx57_eq (n : Fin 100000) (o : Fin 64) (k : Fin 128) : lidx_main_v57 (ix2 n o) k = ix2 n k :=
  funext fun a => Fin.ext (by match a with | ⟨0, _⟩ => rfl | ⟨1, _⟩ => rfl)

theorem ridx57_eq (n : Fin 100000) (o : Fin 64) (k : Fin 128) : ridx_main_v57 (ix2 n o) k = ix2 k o :=
  funext fun a => Fin.ext (by match a with | ⟨0, _⟩ => rfl | ⟨1, _⟩ => rfl)

/-! ## The first layer -/

/-- The first layer's mean at `(n, k)`: the summed rows over the degree. -/
theorem mean1_read (x0 : (⟨S100000x128, .f32⟩ : BufTy).Contents (Elt Ideal)) (x1 : (⟨S2x1600000, .i32⟩ : BufTy).Contents (Elt Ideal))
    (n : Fin 100000) (k : Fin 128) :
    val_main_v22 (F := Ideal) x0 x1 (ix2 n k)
      = Ideal.div (agg (col (val_main_v9 (F := Ideal) x1)) (col (val_main_v12 (F := Ideal) x1)) (tab x0) n k)
          (deg (col (val_main_v12 (F := Ideal) x1)) n) := by
  rw [val_main_v22_apply, Ideal.hostDivf_def]
  refine congrArg₂ Ideal.div ?_ ?_
  · unfold val_main_v13 val_main_v10
    exact agg_read _ x0 _ _ n k (zero_tab _)
  · rw [val_main_v21_apply, idx21_eq, val_main_v20_apply, idx20_eq, val_main_v19_apply, Ideal.maximumf_def]
    unfold val_main_v17
    rw [dst_count]
    exact deg_read _ _ _ _ n (zero_list _) (fun e => one_edges _) (one_list _)

/-- The rectified hidden row. -/
theorem hid_read (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (n : Fin 100000) (j : Fin 128) :
    val_main_v29 (F := Ideal) x0 x1 x2 x3 x4 (ix2 n j)
      = hidR (col (val_main_v9 (F := Ideal) x1)) (col (val_main_v12 (F := Ideal) x1)) (tab x0) (tab x2) (vec x3) (tab x4) n j := by
  rw [val_main_v29_apply, val_main_v28_apply, val_main_v26_apply, val_main_v23_apply, val_main_v27_apply,
    val_main_v25_apply, idx25_eq, val_main_v24_apply, idx24_eq, zero_relu, Ideal.maximumf_def, Ideal.addf_def,
    Ideal.addf_def]
  unfold hidR layerR
  refine congrArg (fun t => max t (0 : EReal)) ?_
  refine congrArg₂ (· + ·) (congrArg₂ (· + ·) ?_ rfl) ?_
  · refine Finset.sum_congr rfl fun k _ => ?_
    rw [lidx23_eq, ridx23_eq, mean1_read]
    rfl
  · refine Finset.sum_congr rfl fun k _ => ?_
    rw [lidx27_eq, ridx27_eq]
    rfl

/-- The hidden rows as a table. -/
theorem hid_tab (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    tab (val_main_v29 (F := Ideal) x0 x1 x2 x3 x4)
      = hidR (col (val_main_v9 (F := Ideal) x1)) (col (val_main_v12 (F := Ideal) x1)) (tab x0) (tab x2) (vec x3) (tab x4) :=
  funext fun n => funext fun j => hid_read x0 x1 x2 x3 x4 n j

/-! ## The second layer -/

/-- The second layer's mean at `(n, k)`: the summed hidden rows over the degree. -/
theorem mean2_read (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (n : Fin 100000) (k : Fin 128) :
    val_main_v52 (F := Ideal) x0 x1 x2 x3 x4 (ix2 n k)
      = Ideal.div (agg (col (val_main_v9 (F := Ideal) x1)) (col (val_main_v12 (F := Ideal) x1))
            (hidR (col (val_main_v9 (F := Ideal) x1)) (col (val_main_v12 (F := Ideal) x1)) (tab x0) (tab x2) (vec x3) (tab x4)) n k)
          (deg (col (val_main_v12 (F := Ideal) x1)) n) := by
  rw [val_main_v52_apply, Ideal.hostDivf_def]
  refine congrArg₂ Ideal.div ?_ ?_
  · unfold val_main_v43 val_main_v40
    rw [src_again, dst_again, ← hid_tab]
    exact agg_read _ (val_main_v29 (F := Ideal) x0 x1 x2 x3 x4) _ _ n k (zero_tab' _)
  · rw [val_main_v51_apply, idx51_eq, val_main_v50_apply, idx50_eq, val_main_v49_apply, Ideal.maximumf_def]
    unfold val_main_v47
    rw [dst_count_again]
    exact deg_read _ _ _ _ n (zero_list' _) (fun e => one_edges' _) (one_list' _)

/-- THE REFERENCE'S VALUE at node `n` and output column `o`. -/
theorem ref_value (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128x64, .f32⟩ : BufTy).Contents (Elt Ideal))
    (x6 : (⟨S64, .f32⟩ : BufTy).Contents (Elt Ideal)) (x7 : (⟨S128x64, .f32⟩ : BufTy).Contents (Elt Ideal))
    (n : Fin 100000) (o : Fin 64) :
    val_main_v58 (F := Ideal) x0 x1 x2 x3 x4 x5 x6 x7 (ix2 n o)
      = outR (col (val_main_v9 (F := Ideal) x1)) (col (val_main_v12 (F := Ideal) x1)) (tab x0) (tab x2) (vec x3) (tab x4)
          (tab x5) (vec x6) (tab x7) n o := by
  rw [val_main_v58_apply, val_main_v56_apply, val_main_v53_apply, val_main_v57_apply, val_main_v55_apply, idx55_eq,
    val_main_v54_apply, idx54_eq, Ideal.addf_def, Ideal.addf_def]
  unfold outR layerR
  refine congrArg₂ (· + ·) (congrArg₂ (· + ·) ?_ rfl) ?_
  · refine Finset.sum_congr rfl fun k _ => ?_
    rw [lidx53_eq, ridx53_eq, mean2_read]
    rfl
  · refine Finset.sum_congr rfl fun k _ => ?_
    rw [lidx57_eq, ridx57_eq, hid_read]
    rfl

end Cert.Sage.Ref

end
-- ==== Proof.AggRead.lean ====
/-
  The edge stage read at a row.

  Scattering, by destination word, the rows a gather selects by source word into an array of zeros leaves at row
  `n`, column `g`, the sum over the edges into `n` of column `g` of the selected rows: the specification's `agg`.
  Scattering ones into zeros counts the edges into `n`; its maximum with one is the specification's `deg`.
-/
import Idealize.ShloMosaic.PureOps.Ideal
import Idealize.ShloMosaic.Lib.ValueIdx
import Idealize.ShloMosaic.Lib.Pipeline.Value
import proofs.«178504_j42391327211901_2_alg».proof.Proof.LibScatterGather
import proofs.«178504_j42391327211901_2_alg».proof.Proof.Spec

noncomputable section

open scoped BigOperators

namespace Cert.Sage

open Idealize.ShloMosaic Idealize.ShloMosaic.ValueIdx Cert.Lib.GnnLaws Cert.Lib.ScatterGather

/-- A scalar splat over any shape reads the scalar at every index. -/
theorem splat_apply {α : Type} {t : Shape} (h : (⟨0, ![]⟩ : Shape).BroadcastsInDim t ![]) (x : (⟨0, ![]⟩ : Shape).Idx → α)
    (j : t.Idx) : broadcastInDim t ![] h x j = x ix0 :=
  broadcastInDim_apply ![] h x j ix0 (fun a => a.elim0)

/-- The splat of the zero word is zero everywhere. -/
theorem splat_zero {t : Shape} (h : (⟨0, ![]⟩ : Shape).BroadcastsInDim t ![]) (j : t.Idx) :
    broadcastInDim t ![] h (constant (F := Ideal) ⟨0, ![]⟩ .f32 0x00000000#32) j = (0 : EReal) :=
  (splat_apply h _ j).trans ofBits_zero

/-- The splat of the one word is one everywhere. -/
theorem splat_one {t : Shape} (h : (⟨0, ![]⟩ : Shape).BroadcastsInDim t ![]) (j : t.Idx) :
    broadcastInDim t ![] h (constant (F := Ideal) ⟨0, ![]⟩ .f32 0x3F800000#32) j = (1 : EReal) :=
  (splat_apply h _ j).trans ofBits_one

/-- The rows selected by source word, scattered by destination word into a table that is zero at `(n, g)`: at
    `(n, g)` the sum, over the edges into `n`, of column `g` of the selected rows. -/
theorem agg_read {C : Nat}
    (wfS : ScatterDims.WF ⟨2, ![100000, C]⟩ ⟨2, ![1600000, 1]⟩ ⟨2, ![1600000, C]⟩ [1] [0] [0] 1)
    (wfG : GatherDims.WF ⟨2, ![100000, C]⟩ ⟨2, ![1600000, 1]⟩ ⟨2, ![1600000, C]⟩ [1] [0] [] [0] [] 1 ![1, C])
    (Z X : FVec Ideal ⟨2, ![100000, C]⟩ .f32) (iS iD : IVec ⟨2, ![1600000, 1]⟩ 32) (n : Fin 100000) (g : Fin C)
    (hZ : Z (ix2 n g) = 0) :
    Host.scatterAdd (F := Ideal) (scatRowsDims 100000 C 1600000 wfS) Z iD
        (Host.gather (rowsDims 100000 C 1600000 wfG) X iS) (ix2 n g)
      = agg (col iS) (col iD) (tab X) n g := by
  refine (scatterAddRows_apply wfS Z iD _ n g).trans ?_
  rw [hZ]
  unfold agg into
  refine congrArg (fun t => (0 : EReal) + t) (Finset.sum_congr rfl fun e _ => ?_)
  exact gather_rows_apply (by omega) wfG X iS e g

/-- Ones scattered by destination word into a list that is zero at `n`, and the larger of the result and one: the
    degree of `n`. -/
theorem deg_read
    (wf : ScatterDims.WF ⟨1, ![100000]⟩ ⟨2, ![1600000, 1]⟩ ⟨1, ![1600000]⟩ [] [0] [0] 1)
    (Z W : FVec Ideal ⟨1, ![100000]⟩ .f32) (O : FVec Ideal ⟨1, ![1600000]⟩ .f32) (iD : IVec ⟨2, ![1600000, 1]⟩ 32)
    (n : Fin 100000) (hZ : Z (ix1 n) = 0) (hO : ∀ e : Fin 1600000, O (ix1 e) = 1) (hW : W (ix1 n) = 1) :
    max (Host.scatterAdd (F := Ideal) (scat1Dims 100000 1600000 wf) Z iD O (ix1 n)) (W (ix1 n)) = deg (col iD) n := by
  rw [hW]
  unfold deg into
  refine congrArg (fun t => max t (1 : EReal)) ?_
  refine (scatterAdd1_apply wf Z iD O n).trans ?_
  rw [hZ]
  exact congrArg (fun t => (0 : EReal) + t) (Finset.sum_congr rfl fun e _ => hO e)

end Cert.Sage

end
-- ==== Proof.EdgeWords.lean ====
/-
  The edge array's two rows as the index arrays the edge stage takes.

  The edge array is `[2, 1600000]`: row 0 the source words, row 1 the destination words. A scatter takes the
  destination row as a `[1600000, 1]` column. A gather takes the source row as such a column after a negative word
  has been wrapped by the table's 100000 rows.
-/
import Idealize.ShloMosaic.PureOps.Ideal

noncomputable section

namespace Cert.Sage

open Idealize.ShloMosaic

/-- Row 1 of the edge array as a column: the destination words. -/
def dstArr (ei : IVec ⟨2, ![2, 1600000]⟩ 32)
    (hs : (⟨2, ![2, 1600000]⟩ : Shape).Slices ![1, 0] ⟨2, ![1, 1600000]⟩)
    (hc : (⟨2, ![1, 1600000]⟩ : Shape).ShapeCasts ⟨1, ![1600000]⟩)
    (hb : (⟨1, ![1600000]⟩ : Shape).BroadcastsInDim ⟨2, ![1600000, 1]⟩ ![0]) : IVec ⟨2, ![1600000, 1]⟩ 32 :=
  broadcastInDim ⟨2, ![1600000, 1]⟩ ![0] hb
    (shapeCast ⟨1, ![1600000]⟩ (extractStridedSlice ⟨2, ![1, 1600000]⟩ ![1, 0] ei hs) hc)

/-- Row 0 of the edge array as a column, a negative word wrapped by 100000: the source words. -/
def srcArr (ei : IVec ⟨2, ![2, 1600000]⟩ 32)
    (hs : (⟨2, ![2, 1600000]⟩ : Shape).Slices ![0, 0] ⟨2, ![1, 1600000]⟩)
    (hc : (⟨2, ![1, 1600000]⟩ : Shape).ShapeCasts ⟨1, ![1600000]⟩)
    (hb : (⟨1, ![1600000]⟩ : Shape).BroadcastsInDim ⟨2, ![1600000, 1]⟩ ![0])
    (hz : (⟨0, ![]⟩ : Shape).BroadcastsInDim ⟨1, ![1600000]⟩ ![]) : IVec ⟨2, ![1600000, 1]⟩ 32 :=
  broadcastInDim ⟨2, ![1600000, 1]⟩ ![0] hb
    (select
      (cmpi .slt (shapeCast ⟨1, ![1600000]⟩ (extractStridedSlice ⟨2, ![1, 1600000]⟩ ![0, 0] ei hs) hc)
        (broadcastInDim ⟨1, ![1600000]⟩ ![] hz (constantI ⟨0, ![]⟩ 32 0#32)))
      (addi (shapeCast ⟨1, ![1600000]⟩ (extractStridedSlice ⟨2, ![1, 1600000]⟩ ![0, 0] ei hs) hc)
        (broadcastInDim ⟨1, ![1600000]⟩ ![] hz (constantI ⟨0, ![]⟩ 32 100000#32)))
      (shapeCast ⟨1, ![1600000]⟩ (extractStridedSlice ⟨2, ![1, 1600000]⟩ ![0, 0] ei hs) hc))

end Cert.Sage

end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.Host0.lean ====
/-
  What the first tiled stage finds: the host operations before it, read.

  Before the first stage the host counts each node's incoming edges (ones scattered by destination word, at least
  one), sums the feature rows the edges select (gathered by source word, scattered by destination word), and lays the
  first bias out as a row. The stage's other operands are the arguments themselves.
-/
import proofs.«178504_j42391327211901_2_alg».proof.Proof.Gen.KernelIdeal.Frame
import Idealize.ShloMosaic.Lib.StableHlo.Run
import Idealize.ShloMosaic.PureOps.Ideal
import Idealize.ShloMosaic.Lib.ValueLayout
import proofs.«178504_j42391327211901_2_alg».proof.Proof.AggRead
import proofs.«178504_j42391327211901_2_alg».proof.Proof.EdgeWords
import proofs.«178504_j42391327211901_2_alg».proof.Proof.LibKeepdims

noncomputable section

namespace Cert.Sage.Host

open Cert.KernelIdeal Cert.KernelIdeal.Gen Cert.Sage
open Idealize.ShloMosaic Idealize.ShloMosaic.TcCoe Idealize.SL.Sem Idealize.ShloMosaic.StableHlo Idealize.ShloMosaic.ValueIdx
open Cert.Lib.ScatterGather

variable (m : (ℓ : Loc nD τ sig) → Buf (Elt Ideal) ℓ) (ρ : Dev nD → PrngReg)

/-- The source words of the tiled program's edge array. -/
abbrev srcK (ei : IVec S2x1600000 32) : IVec S1600000x1 32 :=
  srcArr ei slices_S2x1600000_S1x1600000_0_0 shapeCasts_S1x1600000_S1600000 bcast_S1600000_S1600000x1_0 bcast_S_S1600000

/-- The destination words of the tiled program's edge array. -/
abbrev dstK (ei : IVec S2x1600000 32) : IVec S1600000x1 32 :=
  dstArr ei slices_S2x1600000_S1x1600000_1_0 shapeCasts_S1x1600000_S1600000 bcast_S1600000_S1600000x1_0

/-! ## The printed dimension records -/

theorem gather128_eq : gather_S100000x128_S1600000x1_S1600000x128_1_0_n_n_0_1_1128
    = rowsDims 100000 128 1600000 gather_S100000x128_S1600000x1_S1600000x128_1_0_n_n_0_1_1128_wf := by
  unfold gather_S100000x128_S1600000x1_S1600000x128_1_0_n_n_0_1_1128; rfl

theorem scatter128_eq : scatter_S100000x128_S1600000x1_S1600000x128_1_0_0_1
    = scatRowsDims 100000 128 1600000 scatter_S100000x128_S1600000x1_S1600000x128_1_0_0_1_wf := by
  unfold scatter_S100000x128_S1600000x1_S1600000x128_1_0_0_1; rfl

theorem scatter1_eq : scatter_S100000_S1600000x1_S1600000_n_0_0_1
    = scat1Dims 100000 1600000 scatter_S100000_S1600000x1_S1600000_n_0_0_1_wf := by
  unfold scatter_S100000_S1600000x1_S1600000_n_0_0_1; rfl

/-! ## The computed operands as terms of the arguments -/

set_option maxHeartbeats 4000000 in
/-- The summed feature rows. -/
theorem V1_sum (c : Dev nD) : (V1 (F := Ideal) m ρ c main_v22 : S100000x128.Idx → EReal)
    = Host.scatterAdd (F := Ideal) scatter_S100000x128_S1600000x1_S1600000x128_1_0_0_1
        (broadcastInDim S100000x128 ![] bcast_S_S100000x128 (constant (F := Ideal) S_ .f32 0x00000000#32))
        (dstK (m ((c : Thread nD τ).loc main_arg1)))
        (Host.gather gather_S100000x128_S1600000x1_S1600000x128_1_0_n_n_0_1_1128
          (m ((c : Thread nD τ).loc main_arg0)) (srcK (m ((c : Thread nD τ).loc main_arg1)))) := by
  dsimp only [V1, W1]
  after_results_simp
  rfl

/-- The degree column. -/
theorem V1_cnt (c : Dev nD) : (V1 (F := Ideal) m ρ c main_v10 : S100000x1.Idx → EReal)
    = shapeCast S100000x1
        (maximumf (F := Ideal)
          (Host.scatterAdd (F := Ideal) scatter_S100000_S1600000x1_S1600000_n_0_0_1
            (broadcastInDim S100000 ![] bcast_S_S100000 (constant (F := Ideal) S_ .f32 0x00000000#32))
            (dstK (m ((c : Thread nD τ).loc main_arg1)))
            (broadcastInDim S1600000 ![] bcast_S_S1600000 (constant (F := Ideal) S_ .f32 0x3F800000#32)))
          (broadcastInDim S100000 ![] bcast_S_S100000 (constant (F := Ideal) S_ .f32 0x3F800000#32)))
        shapeCasts_S100000_S100000x1 := by
  dsimp only [V1, W1]
  after_results
  rfl

/-- The first bias as a row. -/
theorem V1_bias (c : Dev nD) : (V1 (F := Ideal) m ρ c main_v23 : S1x128.Idx → EReal)
    = shapeCast S1x128 (m ((c : Thread nD τ).loc main_arg3)) shapeCasts_S128_S1x128 := by
  dsimp only [V1, W1]
  after_results
  rfl

/-! ## The same, at an index, as the specification's terms -/

/-- The summed feature rows at `(n, k)`. -/
theorem V1_agg (c : Dev nD) (n : Fin 100000) (k : Fin 128) :
    (V1 (F := Ideal) m ρ c main_v22 : S100000x128.Idx → EReal) (ix2 n k)
      = agg (col (srcK (m ((c : Thread nD τ).loc main_arg1)))) (col (dstK (m ((c : Thread nD τ).loc main_arg1))))
          (tab (m ((c : Thread nD τ).loc main_arg0) : S100000x128.Idx → EReal)) n k := by
  refine (congrFun (V1_sum m ρ c) (ix2 n k)).trans ?_
  rw [scatter128_eq, gather128_eq]
  exact agg_read _ _ _ (m ((c : Thread nD τ).loc main_arg0)) _ _ n k (splat_zero _ _)

/-- The larger of two arrays, at an index. -/
theorem maximumf_at {s : Shape} (a b : FVec Ideal s .f32) (i : s.Idx) : maximumf (F := Ideal) a b i = max (a i) (b i) := rfl

/-- The degree column at row `n`. -/
theorem V1_deg (c : Dev nD) (n : Fin 100000) :
    (V1 (F := Ideal) m ρ c main_v10 : S100000x1.Idx → EReal) (ix2 n (0 : Fin 1))
      = deg (col (dstK (m ((c : Thread nD τ).loc main_arg1)))) n := by
  refine (congrFun (V1_cnt m ρ c) (ix2 n (0 : Fin 1))).trans ?_
  refine (Idealize.ShloMosaic.Keepdims.shapeCast_a_a1_apply _ shapeCasts_S100000_S100000x1 n (0 : Fin 1)).trans ?_
  refine (maximumf_at _ _ (ix1 n)).trans ?_
  rw [scatter1_eq]
  exact deg_read scatter_S100000_S1600000x1_S1600000_n_0_0_1_wf
    (broadcastInDim S100000 ![] bcast_S_S100000 (constant (F := Ideal) S_ .f32 0x00000000#32))
    (broadcastInDim S100000 ![] bcast_S_S100000 (constant (F := Ideal) S_ .f32 0x3F800000#32))
    (broadcastInDim S1600000 ![] bcast_S_S1600000 (constant (F := Ideal) S_ .f32 0x3F800000#32))
    (dstK (m ((c : Thread nD τ).loc main_arg1))) n
    (splat_zero bcast_S_S100000 (ix1 n)) (fun e => splat_one bcast_S_S1600000 (ix1 e)) (splat_one bcast_S_S100000 (ix1 n))

/-- The first bias row at column `j`. -/
theorem V1_bias_at (c : Dev nD) (j : Fin 128) :
    (V1 (F := Ideal) m ρ c main_v23 : S1x128.Idx → EReal) (ix2 (0 : Fin 1) j)
      = (m ((c : Thread nD τ).loc main_arg3) : S128.Idx → EReal) (ix1 j) := by
  refine (congrFun (V1_bias m ρ c) (ix2 (0 : Fin 1) j)).trans ?_
  exact shapeCast_a_1a_apply _ shapeCasts_S128_S1x128 (0 : Fin 1) j

/-! ## The operands that are arguments -/

theorem V1_arg0 (c : Dev nD) : (V1 (F := Ideal) m ρ c main_arg0 : S100000x128.Idx → EReal) = m ((c : Thread nD τ).loc main_arg0) := by
  dsimp only [V1, W1]; after_results_simp
theorem V1_arg2 (c : Dev nD) : (V1 (F := Ideal) m ρ c main_arg2 : S128x128.Idx → EReal) = m ((c : Thread nD τ).loc main_arg2) := by
  dsimp only [V1, W1]; after_results_simp
theorem V1_arg4 (c : Dev nD) : (V1 (F := Ideal) m ρ c main_arg4 : S128x128.Idx → EReal) = m ((c : Thread nD τ).loc main_arg4) := by
  dsimp only [V1, W1]; after_results_simp
theorem V1_arg5 (c : Dev nD) : (V1 (F := Ideal) m ρ c main_arg5 : S128x64.Idx → EReal) = m ((c : Thread nD τ).loc main_arg5) := by
  dsimp only [V1, W1]; after_results_simp

end Cert.Sage.Host

end
-- ==== Proof.Host1.lean ====
/-
  What the second tiled stage finds: the host operations between the two stages, read.

  Between the stages the host sums, for every node, the 64-wide products of the edges into it (the first stage's
  second output gathered by source word and scattered by destination word into zeros) and lays the second bias out
  as a row. The hidden rows, the degree column and the second layer's root weights reach the second stage as the
  first stage, the host before it, and the launch left them.
-/
import proofs.«178504_j42391327211901_2_alg».proof.Proof.Gen.KernelIdeal.Frame
import Idealize.ShloMosaic.Lib.StableHlo.Run
import Idealize.ShloMosaic.PureOps.Ideal
import proofs.«178504_j42391327211901_2_alg».proof.Proof.AggRead
import proofs.«178504_j42391327211901_2_alg».proof.Proof.EdgeWords
import proofs.«178504_j42391327211901_2_alg».proof.Proof.Host0

noncomputable section

namespace Cert.Sage.Host1

open Cert.KernelIdeal Cert.KernelIdeal.Gen Cert.Sage Cert.Sage.Host
open Idealize.ShloMosaic Idealize.ShloMosaic.TcCoe Idealize.SL.Sem Idealize.ShloMosaic.StableHlo Idealize.ShloMosaic.ValueIdx
open Cert.Lib.ScatterGather

variable (m : (ℓ : Loc nD τ sig) → Buf (Elt Ideal) ℓ) (ρ : Dev nD → PrngReg)

/-! ## The printed dimension records of the 64-wide gather and scatter -/

theorem gather64_eq : gather_S100000x64_S1600000x1_S1600000x64_1_0_n_n_0_1_164
    = rowsDims 100000 64 1600000 gather_S100000x64_S1600000x1_S1600000x64_1_0_n_n_0_1_164_wf := by
  unfold gather_S100000x64_S1600000x1_S1600000x64_1_0_n_n_0_1_164; rfl

theorem scatter64_eq : scatter_S100000x64_S1600000x1_S1600000x64_1_0_0_1
    = scatRowsDims 100000 64 1600000 scatter_S100000x64_S1600000x1_S1600000x64_1_0_0_1_wf := by
  unfold scatter_S100000x64_S1600000x1_S1600000x64_1_0_0_1; rfl

/-! ## Buffers the host does not write between the stages -/

/-- The hidden rows, the first stage's first output, reach the second stage as the first stage left them. -/
theorem V3_hidden (c : Dev nD) :
    (V3 (F := Ideal) m ρ c main_v24_0 : S100000x128.Idx → EReal) = (dat0 (F := Ideal) (V1 m ρ) c).arrAt 7 cfg0.N :=
  calc W3 m ρ c (Proc.devRef .tc main_v24_0)
    _ = W2 m ρ c (Proc.devRef .tc main_v24_0) := StableHlo.after_of_forall_not_mem (b := Proc.devRef .tc main_v24_0) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = (dat0 (F := Ideal) (V1 m ρ) c).arrAt 7 cfg0.N := W2_arr m ρ c 7

/-- The degree column reaches the second stage as the host before the first stage left it: the first stage only
    reads it. -/
theorem V3_cnt (c : Dev nD) :
    (V3 (F := Ideal) m ρ c main_v10 : S100000x1.Idx → EReal) = V1 m ρ c main_v10 :=
  calc W3 m ρ c (Proc.devRef .tc main_v10)
    _ = W2 m ρ c (Proc.devRef .tc main_v10) := StableHlo.after_of_forall_not_mem (b := Proc.devRef .tc main_v10) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_v10) := (W2_arr m ρ c 2).trans (((dat0 (V1 m ρ) c).arrAt_in 2 rfl _).trans (A_eq0 (V1 m ρ) c 2))

/-- The second layer's root weights reach the second stage as launched. -/
theorem V3_w2r (c : Dev nD) :
    (V3 (F := Ideal) m ρ c main_arg7 : S128x64.Idx → EReal) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg7) := rfl

/-- The second bias is as launched when the host lays it out as a row. -/
theorem W2_bias2 (c : Dev nD) :
    W2 (F := Ideal) m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg6) := rfl

/-! ## The computed operands as terms of the arguments and of the first stage's output -/

/-- The second bias as a row. -/
theorem V3_bias (c : Dev nD) : (V3 (F := Ideal) m ρ c main_v37 : S1x64.Idx → EReal)
    = shapeCast S1x64 (m ((c : Thread nD τ).loc main_arg6)) shapeCasts_S64_S1x64 := by
  dsimp only [V3, W3]
  after_results
  rw [W2_bias2]
  rfl

/-- The source row of the edge array, laid out by the host before the first stage, is untouched between the stages. -/
theorem W2_srcRow (c : Dev nD) :
    (W2 (F := Ideal) m ρ c (Proc.devRef .tc main_v1) : S1600000.Idx → BitVec 32)
      = shapeCast S1600000 (extractStridedSlice S1x1600000 ![0, 0] (m ((c : Thread nD τ).loc main_arg1))
          slices_S2x1600000_S1x1600000_0_0) shapeCasts_S1x1600000_S1600000 := by
  refine (W2_of_ne m ρ c main_v1 (by decide)).trans ?_
  dsimp only [W1]
  after_results
  rfl

/-- So is the destination row. -/
theorem W2_dstRow (c : Dev nD) :
    (W2 (F := Ideal) m ρ c (Proc.devRef .tc main_v3) : S1600000.Idx → BitVec 32)
      = shapeCast S1600000 (extractStridedSlice S1x1600000 ![1, 0] (m ((c : Thread nD τ).loc main_arg1))
          slices_S2x1600000_S1x1600000_1_0) shapeCasts_S1x1600000_S1600000 := by
  refine (W2_of_ne m ρ c main_v3 (by decide)).trans ?_
  dsimp only [W1]
  after_results
  rfl

/-- The 64-wide products are what the first stage left as its second output. -/
theorem W2_products (c : Dev nD) :
    (W2 (F := Ideal) m ρ c (Proc.devRef .tc main_v24_1) : S100000x64.Idx → EReal)
      = (dat0 (F := Ideal) (V1 m ρ) c).arrAt 8 cfg0.N := W2_arr m ρ c 8

set_option maxHeartbeats 4000000 in
/-- The summed products as a term: the products gathered by source word, scattered by destination word into zeros
    (the two roundings around the gather are the identity on extended reals). -/
theorem V3_sum_term (c : Dev nD) : (V3 (F := Ideal) m ρ c main_v36 : S100000x64.Idx → EReal)
    = Host.scatterAdd (F := Ideal) scatter_S100000x64_S1600000x1_S1600000x64_1_0_0_1
        (broadcastInDim S100000x64 ![] bcast_S_S100000x64 (constant (F := Ideal) S_ .f32 0x00000000#32))
        (dstK (m ((c : Thread nD τ).loc main_arg1)))
        (Host.gather gather_S100000x64_S1600000x1_S1600000x64_1_0_n_n_0_1_164
          ((dat0 (F := Ideal) (V1 m ρ) c).arrAt 8 cfg0.N) (srcK (m ((c : Thread nD τ).loc main_arg1)))) := by
  dsimp only [V3, W3]
  after_results_simp
  rw [W2_srcRow, W2_dstRow, W2_products]
  rfl

/-- The summed products at node `n`, column `o`: the specification's sum over the edges into `n`. -/
theorem V3_sum (c : Dev nD) (n : Fin 100000) (o : Fin 64) :
    (V3 (F := Ideal) m ρ c main_v36 : S100000x64.Idx → EReal) (ix2 n o)
      = agg (col (srcK (m ((c : Thread nD τ).loc main_arg1)))) (col (dstK (m ((c : Thread nD τ).loc main_arg1))))
          (tab ((dat0 (F := Ideal) (V1 m ρ) c).arrAt 8 cfg0.N)) n o := by
  refine (congrFun (V3_sum_term m ρ c) (ix2 n o)).trans ?_
  rw [scatter64_eq, gather64_eq]
  exact agg_read _ _ _ _ _ _ n o (splat_zero _ _)

end Cert.Sage.Host1

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.Region0Value.lean ====
/-
  The first tiled stage's two output arrays, as whole-array functions of the arrays the stage finds.

  The stage runs over 25 row tiles of 4000 nodes. At tile `t` it reads rows `4000 t … 4000 t + 3999` of the summed
  rows, of the features and of the degree column, and the whole weight and bias arrays. For row `p` of the tile and
  column `q` it stores
      max ((Σ_k (A[p,k] / D[p]) · W1l[k,q] + Σ_k X[p,k] · W1r[k,q]) + b1[q]) 0
  into the hidden array's tile, and that hidden row contracted with the 64-wide weights into the second output's tile.
  On extended reals the roundings to the narrow format are the identity, a matrix product into the zero accumulator is
  the plain sum of products, and the two broadcasts copy the degree along its row and the bias down its column.
  Every row `r` of an output lies in the tile of point `r / 4000`, which is written back, so each output array ends
  holding one function of the inputs: `lin1K`, and `projK` of `lin1K`, of the specification.
-/
import proofs.«178504_j42391327211901_2_alg».proof.Proof.Gen.KernelIdeal.Frame
import proofs.«178504_j42391327211901_2_alg».proof.Proof.Spec
import proofs.«178504_j42391327211901_2_alg».proof.Proof.LibKeepdims
import proofs.«178504_j42391327211901_2_alg».proof.Proof.LibMatmul
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Sage.Reg

open Cert.KernelIdeal Cert.KernelIdeal.Gen Cert.Sage Idealize.ShloMosaic Idealize.ShloMosaic.ValueIdx
open Idealize.ShloMosaic.TcCoe Idealize.SL.Sem
open Idealize.ShloMosaic.Pipeline (Dat)

/-! ## The two contractions' dimension numbers are the plain matrix product's -/

theorem dot1_eq : dot_S4000x128_S128x128_S4000x128_1_0_0_1_n_n = DotDims.plain 4000 128 128 := rfl
theorem dot2_eq : dot_S4000x128_S128x64_S4000x64_1_0_0_1_n_n = DotDims.plain 4000 128 64 := rfl

/-! ## What the bodies store, entry by entry -/

/-- The first body's hidden block at row `p`, column `q`: the block's summed rows divided by the row's degree and
    contracted with the first weights, plus the row's own features contracted with the second weights, plus the bias,
    rectified. The roundings to the narrow format are the identity on extended reals. -/
theorem pay1_apply (a : Vec Ideal S4000x128 .f32) (d : Vec Ideal S4000x1 .f32) (x : Vec Ideal S4000x128 .f32)
    (wl : Vec Ideal S128x128 .f32) (wr : Vec Ideal S128x128 .f32) (b : Vec Ideal S1x128 .f32) (p : Fin 4000) (q : Fin 128) :
    k0_pay1 (F := Ideal) a d x wl wr b (ix2 p q)
      = max (((∑ k : Fin 128, Ideal.div (a (ix2 p k)) (d (ix2 p (0 : Fin 1))) * wl (ix2 k q)) + ∑ k : Fin 128, x (ix2 p k) * wr (ix2 k q)) + b (ix2 (0 : Fin 1) q)) 0 := by
  unfold k0_pay1
  rw [dot1_eq]
  simp only [shapeCast_self]
  show max ((matmul (F := Ideal) (DotDims.plain 4000 128 128) none _ _ (constant _ .f32 0x00000000#32) (ix2 p q) + matmul (F := Ideal) (DotDims.plain 4000 128 128) none _ _ (constant _ .f32 0x00000000#32) (ix2 p q)) + broadcastTo S4000x128 b broadcasts_S1x128_S4000x128 (ix2 p q)) (Ideal.ofBits .f32 0x00000000#32) = _
  rw [Cert.MatOps.matmul_plain_zero_apply, Cert.MatOps.matmul_plain_zero_apply, broadcastTo_1b_ab_apply, Cert.Lib.GnnLaws.ofBits_zero]
  have hd : ∀ k : Fin 128, (truncf FTy.bf16 (divf a (broadcastTo S4000x128 d broadcasts_S4000x1_S4000x128)) bitsLt_bf16_f32 : FVec Ideal S4000x128 .bf16) (ix2 p k)
      = Ideal.div (a (ix2 p k)) (d (ix2 p (0 : Fin 1))) := by
    intro k
    exact congrArg (Ideal.div (a (ix2 p k))) (Keepdims.broadcastTo_a1_ab_apply d broadcasts_S4000x1_S4000x128 p k (0 : Fin 1))
  simp only [hd]
  rfl

/-- The first body's second block at row `p`, column `o`: the hidden block's row contracted with the 64-wide weights. -/
theorem pay2_apply (a : Vec Ideal S4000x128 .f32) (d : Vec Ideal S4000x1 .f32) (x : Vec Ideal S4000x128 .f32)
    (wl : Vec Ideal S128x128 .f32) (wr : Vec Ideal S128x128 .f32) (b : Vec Ideal S1x128 .f32) (w2 : Vec Ideal S128x64 .f32)
    (p : Fin 4000) (o : Fin 64) :
    k0_pay2 (F := Ideal) a d x wl wr b w2 (ix2 p o)
      = ∑ k : Fin 128, k0_pay1 (F := Ideal) a d x wl wr b (ix2 p k) * w2 (ix2 k o) := by
  unfold k0_pay2
  rw [dot2_eq]
  show matmul (F := Ideal) (DotDims.plain 4000 128 64) none _ _ (constant _ .f32 0x00000000#32) (ix2 p o) = _
  rw [Cert.MatOps.matmul_plain_zero_apply]
  rfl

/-! ## Where a block sits in its array -/

theorem hz : (![0, 0] : Fin 2 → Nat) = fun _ => 0 := funext fun a => by fin_cases a <;> rfl

/-- The first region's index maps over its 25 points: a row window's block index is the point along the rows and zero
    along the columns; a weight or bias window stays at block (0, 0). -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

theorem idx0_0 (t : Fin cfg0.N) : win0_0.index t (0 : Fin 2) = t.val ∧ win0_0.index t (1 : Fin 2) = 0 := (idx0 t).1
theorem idx0_1 (t : Fin cfg0.N) : win0_1.index t (0 : Fin 2) = t.val ∧ win0_1.index t (1 : Fin 2) = 0 := (idx0 t).2.1
theorem idx0_2 (t : Fin cfg0.N) : win0_2.index t (0 : Fin 2) = t.val ∧ win0_2.index t (1 : Fin 2) = 0 := (idx0 t).2.2.1
theorem idx0_3 (t : Fin cfg0.N) : win0_3.index t (0 : Fin 2) = 0 ∧ win0_3.index t (1 : Fin 2) = 0 := (idx0 t).2.2.2.1
theorem idx0_4 (t : Fin cfg0.N) : win0_4.index t (0 : Fin 2) = 0 ∧ win0_4.index t (1 : Fin 2) = 0 := (idx0 t).2.2.2.2.1
theorem idx0_5 (t : Fin cfg0.N) : win0_5.index t (0 : Fin 2) = 0 ∧ win0_5.index t (1 : Fin 2) = 0 := (idx0 t).2.2.2.2.2.1
theorem idx0_6 (t : Fin cfg0.N) : win0_6.index t (0 : Fin 2) = 0 ∧ win0_6.index t (1 : Fin 2) = 0 := (idx0 t).2.2.2.2.2.2.1
theorem idx0_7 (t : Fin cfg0.N) : win0_7.index t (0 : Fin 2) = t.val ∧ win0_7.index t (1 : Fin 2) = 0 := (idx0 t).2.2.2.2.2.2.2.1
theorem idx0_8 (t : Fin cfg0.N) : win0_8.index t (0 : Fin 2) = t.val ∧ win0_8.index t (1 : Fin 2) = 0 := (idx0 t).2.2.2.2.2.2.2.2

variable (V : (c : Dev nD) → (b : Ref sig .tc) → Buf (Elt Ideal) ((c : Thread nD τ).loc b))

/-! ## The first region's input blocks as entries of the arrays the region finds

A row window's block at point `t` is rows `4000 t … 4000 t + 3999` of its array, all columns; a weight or bias window's
block is its whole array. -/

theorem iblk0_0_apply (c : Dev nD) (t : Fin cfg0.N) (p : Fin 4000) (k : Fin 128) (n : Fin 100000) (hn : n.val = 4000 * t.val + p.val) :
    (iblk0 (F := Ideal) V c 0 t : Vec Ideal S4000x128 .f32) (ix2 p k) = (V c main_v22 : S100000x128.Idx → EReal) (ix2 n k) := by
  obtain ⟨e0, e1⟩ := idx0_0 t
  unfold iblk0
  rw [View.read_apply]
  show V c main_v22 _ = V c main_v22 _
  congr 1
  funext a
  apply Fin.ext
  match a with
  | ⟨0, _⟩ => show win0_0.index t (0 : Fin 2) * 4000 + 1 * p.val = n.val; rw [e0, hn]; omega
  | ⟨1, _⟩ => show win0_0.index t (1 : Fin 2) * 128 + 1 * k.val = k.val; rw [e1]; omega

theorem iblk0_1_apply (c : Dev nD) (t : Fin cfg0.N) (p : Fin 4000) (k : Fin 128) (n : Fin 100000) (hn : n.val = 4000 * t.val + p.val) :
    (iblk0 (F := Ideal) V c 1 t : Vec Ideal S4000x128 .f32) (ix2 p k) = (V c main_arg0 : S100000x128.Idx → EReal) (ix2 n k) := by
  obtain ⟨e0, e1⟩ := idx0_1 t
  unfold iblk0
  rw [View.read_apply]
  show V c main_arg0 _ = V c main_arg0 _
  congr 1
  funext a
  apply Fin.ext
  match a with
  | ⟨0, _⟩ => show win0_1.index t (0 : Fin 2) * 4000 + 1 * p.val = n.val; rw [e0, hn]; omega
  | ⟨1, _⟩ => show win0_1.index t (1 : Fin 2) * 128 + 1 * k.val = k.val; rw [e1]; omega

theorem iblk0_2_apply (c : Dev nD) (t : Fin cfg0.N) (p : Fin 4000) (k : Fin 1) (n : Fin 100000) (hn : n.val = 4000 * t.val + p.val) :
    (iblk0 (F := Ideal) V c 2 t : Vec Ideal S4000x1 .f32) (ix2 p k) = (V c main_v10 : S100000x1.Idx → EReal) (ix2 n k) := by
  obtain ⟨e0, e1⟩ := idx0_2 t
  unfold iblk0
  rw [View.read_apply]
  show V c main_v10 _ = V c main_v10 _
  congr 1
  funext a
  apply Fin.ext
  match a with
  | ⟨0, _⟩ => show win0_2.index t (0 : Fin 2) * 4000 + 1 * p.val = n.val; rw [e0, hn]; omega
  | ⟨1, _⟩ => show win0_2.index t (1 : Fin 2) * 1 + 1 * k.val = k.val; rw [e1]; omega

theorem iblk0_3_apply (c : Dev nD) (t : Fin cfg0.N) (a : Fin 128) (b : Fin 128) :
    (iblk0 (F := Ideal) V c 3 t : Vec Ideal S128x128 .f32) (ix2 a b) = (V c main_arg2 : S128x128.Idx → EReal) (ix2 a b) := by
  obtain ⟨e0, e1⟩ := idx0_3 t
  unfold iblk0
  rw [View.read_apply]
  show V c main_arg2 _ = V c main_arg2 _
  congr 1
  funext x
  apply Fin.ext
  match x with
  | ⟨0, _⟩ => show win0_3.index t (0 : Fin 2) * 128 + 1 * a.val = a.val; rw [e0]; omega
  | ⟨1, _⟩ => show win0_3.index t (1 : Fin 2) * 128 + 1 * b.val = b.val; rw [e1]; omega

theorem iblk0_4_apply (c : Dev nD) (t : Fin cfg0.N) (a : Fin 1) (b : Fin 128) :
    (iblk0 (F := Ideal) V c 4 t : Vec Ideal S1x128 .f32) (ix2 a b) = (V c main_v23 : S1x128.Idx → EReal) (ix2 a b) := by
  obtain ⟨e0, e1⟩ := idx0_4 t
  unfold iblk0
  rw [View.read_apply]
  show V c main_v23 _ = V c main_v23 _
  congr 1
  funext x
  apply Fin.ext
  match x with
  | ⟨0, _⟩ => show win0_4.index t (0 : Fin 2) * 1 + 1 * a.val = a.val; rw [e0]; omega
  | ⟨1, _⟩ => show win0_4.index t (1 : Fin 2) * 128 + 1 * b.val = b.val; rw [e1]; omega

theorem iblk0_5_apply (c : Dev nD) (t : Fin cfg0.N) (a : Fin 128) (b : Fin 128) :
    (iblk0 (F := Ideal) V c 5 t : Vec Ideal S128x128 .f32) (ix2 a b) = (V c main_arg4 : S128x128.Idx → EReal) (ix2 a b) := by
  obtain ⟨e0, e1⟩ := idx0_5 t
  unfold iblk0
  rw [View.read_apply]
  show V c main_arg4 _ = V c main_arg4 _
  congr 1
  funext x
  apply Fin.ext
  match x with
  | ⟨0, _⟩ => show win0_5.index t (0 : Fin 2) * 128 + 1 * a.val = a.val; rw [e0]; omega
  | ⟨1, _⟩ => show win0_5.index t (1 : Fin 2) * 128 + 1 * b.val = b.val; rw [e1]; omega

theorem iblk0_6_apply (c : Dev nD) (t : Fin cfg0.N) (a : Fin 128) (b : Fin 64) :
    (iblk0 (F := Ideal) V c 6 t : Vec Ideal S128x64 .f32) (ix2 a b) = (V c main_arg5 : S128x64.Idx → EReal) (ix2 a b) := by
  obtain ⟨e0, e1⟩ := idx0_6 t
  unfold iblk0
  rw [View.read_apply]
  show V c main_arg5 _ = V c main_arg5 _
  congr 1
  funext x
  apply Fin.ext
  match x with
  | ⟨0, _⟩ => show win0_6.index t (0 : Fin 2) * 128 + 1 * a.val = a.val; rw [e0]; omega
  | ⟨1, _⟩ => show win0_6.index t (1 : Fin 2) * 64 + 1 * b.val = b.val; rw [e1]; omega

/-! ## The hidden array -/

/-- One stored entry as the first stage's function of the arrays, given where the blocks' entries sit in them. -/
theorem lin1_block (A X : S100000x128.Idx → EReal) (D : S100000x1.Idx → EReal) (Wl Wr : S128x128.Idx → EReal) (B : S1x128.Idx → EReal)
    (a x : Vec Ideal S4000x128 .f32) (d : Vec Ideal S4000x1 .f32) (wl wr : Vec Ideal S128x128 .f32) (b : Vec Ideal S1x128 .f32)
    (p : Fin 4000) (n : Fin 100000)
    (ha : ∀ k : Fin 128, a (ix2 p k) = A (ix2 n k)) (hx : ∀ k : Fin 128, x (ix2 p k) = X (ix2 n k))
    (hd : d (ix2 p (0 : Fin 1)) = D (ix2 n (0 : Fin 1)))
    (hwl : ∀ k q : Fin 128, wl (ix2 k q) = Wl (ix2 k q)) (hwr : ∀ k q : Fin 128, wr (ix2 k q) = Wr (ix2 k q))
    (hb : ∀ q : Fin 128, b (ix2 (0 : Fin 1) q) = B (ix2 (0 : Fin 1) q)) (q : Fin 128) :
    k0_pay1 (F := Ideal) a d x wl wr b (ix2 p q) = lin1K (tab A) (col D) (tab X) (tab Wl) (rowv B) (tab Wr) n q := by
  rw [pay1_apply]
  simp only [ha, hx, hd, hwl, hwr, hb]
  rfl

/-- The hidden array as one function of the arrays the first region finds. -/
def hid0 (c : Dev nD) : S100000x128.Idx → EReal := fun i =>
  lin1K (tab (V c main_v22)) (col (V c main_v10)) (tab (V c main_arg0)) (tab (V c main_arg2)) (rowv (V c main_v23)) (tab (V c main_arg4)) (i 0) (i 1)

/-- What point `t` writes back to the hidden array is block `t` of that function. -/
theorem flushed0_7 (c : Dev nD) (t : Fin cfg0.N) :
    (dat0 (F := Ideal) V c).flushed 7 t = ((cfg0.win 7).blk t).view.read (Elt Ideal) (hid0 V c) := by
  show (cfg0.win 7).cut (grid0.coords t) ((dat0 V c).after 7 t) = _
  rw [after0_7]
  unfold out0_7
  rw [View.canon_unit_zero hz]
  simp only [View.ld_unit_zero (S := S4000x128) hz, View.ld_unit_zero (S := S4000x1) hz, View.ld_unit_zero (S := S128x128) hz, View.ld_unit_zero (S := S1x128) hz]
  funext y
  obtain ⟨p, q, rfl⟩ : ∃ (p : Fin 4000) (q : Fin 128), y = ix2 p q := ⟨y 0, y 1, eq_ix2 y⟩
  have hN : cfg0.N = 25 := N_0
  have ht : t.val < 25 := by have := t.isLt; omega
  obtain ⟨e0, e1⟩ := idx0_7 t
  obtain ⟨n, hn⟩ : ∃ n : Fin 100000, n.val = 4000 * t.val + p.val := ⟨⟨4000 * t.val + p.val, by omega⟩, rfl⟩
  have hemb : ((cfg0.win 7).blk t).view.emb (ix2 p q) = ix2 n q := by
    funext a
    apply Fin.ext
    match a with
    | ⟨0, _⟩ => show win0_7.index t (0 : Fin 2) * 4000 + 1 * p.val = n.val; rw [e0, hn]; omega
    | ⟨1, _⟩ => show win0_7.index t (1 : Fin 2) * 128 + 1 * q.val = q.val; rw [e1]; omega
  show k0_pay1 (F := Ideal) (iblk0 V c 0 t) (iblk0 V c 2 t) (iblk0 V c 1 t) (iblk0 V c 3 t) (iblk0 V c 5 t) (iblk0 V c 4 t) (ix2 p q)
    = hid0 V c (((cfg0.win 7).blk t).view.emb (ix2 p q))
  rw [hemb]
  exact lin1_block (V c main_v22) (V c main_arg0) (V c main_v10) (V c main_arg2) (V c main_arg4) (V c main_v23)
    (iblk0 V c 0 t) (iblk0 V c 1 t) (iblk0 V c 2 t) (iblk0 V c 3 t) (iblk0 V c 5 t) (iblk0 V c 4 t) p n
    (fun k => iblk0_0_apply V c t p k n hn) (fun k => iblk0_1_apply V c t p k n hn) (iblk0_2_apply V c t p 0 n hn)
    (fun k q => iblk0_3_apply V c t k q) (fun k q => iblk0_5_apply V c t k q) (fun q => iblk0_4_apply V c t 0 q) q

/-- An index of the array is in point `t`'s block iff each coordinate is in the block's range on its axis. -/
theorem mem_blk0_7 (t : Fin cfg0.N) (i : S100000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v24_0).slice (win0_7.rect t)).set ↔ _
  rw [View.set_slice_whole, Rect.mem_set_unit]
  exact Iff.rfl

/-- Row `r` of the array is in the block of point `r / 4000`, which is written back. -/
theorem covered0_7 (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by omega⟩, rfl⟩
  obtain ⟨e0, e1⟩ := idx0_7 t
  refine ⟨t, flush0_7 t, ?_⟩
  rw [mem_blk0_7]
  intro a
  match a with
  | ⟨0, _⟩ => show win0_7.index t (0 : Fin 2) * 4000 ≤ (i 0).val ∧ (i 0).val < win0_7.index t (0 : Fin 2) * 4000 + 4000; rw [e0, ht]; omega
  | ⟨1, _⟩ => show win0_7.index t (1 : Fin 2) * 128 ≤ (i 1).val ∧ (i 1).val < win0_7.index t (1 : Fin 2) * 128 + 128; rw [e1]; omega

/-- After the region the hidden array holds that function. -/
theorem final0_7 (c : Dev nD) : (dat0 (F := Ideal) V c).arrAt 7 cfg0.N = hid0 V c :=
  (dat0 (F := Ideal) V c).arrAt_eq_of_cover 7 (hid0 V c) (fun t _ => flushed0_7 V c t) covered0_7

theorem region0_hidden (c : Dev nD) (n : Fin 100000) (j : Fin 128) :
    ((dat0 (F := Ideal) V c).arrAt 7 cfg0.N) (ix2 n j)
      = lin1K (tab (V c main_v22)) (col (V c main_v10)) (tab (V c main_arg0)) (tab (V c main_arg2)) (rowv (V c main_v23)) (tab (V c main_arg4)) n j := by
  rw [final0_7]
  rfl

/-! ## The projected array -/

/-- One stored entry of the second output as the hidden row contracted with the 64-wide weights. -/
theorem proj_block (A X : S100000x128.Idx → EReal) (D : S100000x1.Idx → EReal) (Wl Wr : S128x128.Idx → EReal) (B : S1x128.Idx → EReal)
    (W2 : S128x64.Idx → EReal)
    (a x : Vec Ideal S4000x128 .f32) (d : Vec Ideal S4000x1 .f32) (wl wr : Vec Ideal S128x128 .f32) (b : Vec Ideal S1x128 .f32)
    (w2 : Vec Ideal S128x64 .f32) (p : Fin 4000) (n : Fin 100000)
    (ha : ∀ k : Fin 128, a (ix2 p k) = A (ix2 n k)) (hx : ∀ k : Fin 128, x (ix2 p k) = X (ix2 n k))
    (hd : d (ix2 p (0 : Fin 1)) = D (ix2 n (0 : Fin 1)))
    (hwl : ∀ k q : Fin 128, wl (ix2 k q) = Wl (ix2 k q)) (hwr : ∀ k q : Fin 128, wr (ix2 k q) = Wr (ix2 k q))
    (hb : ∀ q : Fin 128, b (ix2 (0 : Fin 1) q) = B (ix2 (0 : Fin 1) q))
    (hw2 : ∀ (k : Fin 128) (o : Fin 64), w2 (ix2 k o) = W2 (ix2 k o)) (o : Fin 64) :
    k0_pay2 (F := Ideal) a d x wl wr b w2 (ix2 p o)
      = projK (lin1K (tab A) (col D) (tab X) (tab Wl) (rowv B) (tab Wr)) (tab W2) n o := by
  rw [pay2_apply]
  simp only [lin1_block A X D Wl Wr B a x d wl wr b p n ha hx hd hwl hwr hb, hw2]
  rfl

/-- The projected array as one function of the arrays the first region finds. -/
def proj0 (c : Dev nD) : S100000x64.Idx → EReal := fun i =>
  projK (lin1K (tab (V c main_v22)) (col (V c main_v10)) (tab (V c main_arg0)) (tab (V c main_arg2)) (rowv (V c main_v23)) (tab (V c main_arg4)))
    (tab (V c main_arg5)) (i 0) (i 1)

/-- What point `t` writes back to the projected array is block `t` of that function. -/
theorem flushed0_8 (c : Dev nD) (t : Fin cfg0.N) :
    (dat0 (F := Ideal) V c).flushed 8 t = ((cfg0.win 8).blk t).view.read (Elt Ideal) (proj0 V c) := by
  show (cfg0.win 8).cut (grid0.coords t) ((dat0 V c).after 8 t) = _
  rw [after0_8]
  unfold out0_8
  rw [View.canon_unit_zero hz]
  simp only [View.ld_unit_zero (S := S4000x128) hz, View.ld_unit_zero (S := S4000x1) hz, View.ld_unit_zero (S := S128x128) hz, View.ld_unit_zero (S := S1x128) hz, View.ld_unit_zero (S := S128x64) hz]
  funext y
  obtain ⟨p, o, rfl⟩ : ∃ (p : Fin 4000) (o : Fin 64), y = ix2 p o := ⟨y 0, y 1, eq_ix2 y⟩
  have hN : cfg0.N = 25 := N_0
  have ht : t.val < 25 := by have := t.isLt; omega
  obtain ⟨e0, e1⟩ := idx0_8 t
  obtain ⟨n, hn⟩ : ∃ n : Fin 100000, n.val = 4000 * t.val + p.val := ⟨⟨4000 * t.val + p.val, by omega⟩, rfl⟩
  have hemb : ((cfg0.win 8).blk t).view.emb (ix2 p o) = ix2 n o := by
    funext a
    apply Fin.ext
    match a with
    | ⟨0, _⟩ => show win0_8.index t (0 : Fin 2) * 4000 + 1 * p.val = n.val; rw [e0, hn]; omega
    | ⟨1, _⟩ => show win0_8.index t (1 : Fin 2) * 64 + 1 * o.val = o.val; rw [e1]; omega
  show k0_pay2 (F := Ideal) (iblk0 V c 0 t) (iblk0 V c 2 t) (iblk0 V c 1 t) (iblk0 V c 3 t) (iblk0 V c 5 t) (iblk0 V c 4 t) (iblk0 V c 6 t) (ix2 p o)
    = proj0 V c (((cfg0.win 8).blk t).view.emb (ix2 p o))
  rw [hemb]
  exact proj_block (V c main_v22) (V c main_arg0) (V c main_v10) (V c main_arg2) (V c main_arg4) (V c main_v23) (V c main_arg5)
    (iblk0 V c 0 t) (iblk0 V c 1 t) (iblk0 V c 2 t) (iblk0 V c 3 t) (iblk0 V c 5 t) (iblk0 V c 4 t) (iblk0 V c 6 t) p n
    (fun k => iblk0_0_apply V c t p k n hn) (fun k => iblk0_1_apply V c t p k n hn) (iblk0_2_apply V c t p 0 n hn)
    (fun k q => iblk0_3_apply V c t k q) (fun k q => iblk0_5_apply V c t k q) (fun q => iblk0_4_apply V c t 0 q)
    (fun k o => iblk0_6_apply V c t k o) o

/-- An index of the array is in point `t`'s block iff each coordinate is in the block's range on its axis. -/
theorem mem_blk0_8 (t : Fin cfg0.N) (i : S100000x64.Idx) :
    i ∈ ((cfg0.win 8).blk t).view.set ↔ ∀ a : Fin 2, win0_8.index t a * S4000x64.size a ≤ (i a).val ∧ (i a).val < win0_8.index t a * S4000x64.size a + S4000x64.size a := by
  show i ∈ ((View.whole main_v24_1).slice (win0_8.rect t)).set ↔ _
  rw [View.set_slice_whole, Rect.mem_set_unit]
  exact Iff.rfl

/-- Row `r` of the array is in the block of point `r / 4000`, which is written back. -/
theorem covered0_8 (i : S100000x64.Idx) :
    ∃ t : Fin cfg0.N, (cfg0.win 8).flush t = true ∧ i ∈ ((cfg0.win 8).blk t).view.set := by
  have hi0 : (i 0).val < 100000 := (i 0).isLt
  have hi1 : (i 1).val < 64 := (i 1).isLt
  have hN : cfg0.N = 25 := N_0
  obtain ⟨t, ht⟩ : ∃ t : Fin cfg0.N, t.val = (i 0).val / 4000 := ⟨⟨(i 0).val / 4000, by omega⟩, rfl⟩
  obtain ⟨e0, e1⟩ := idx0_8 t
  refine ⟨t, flush0_8 t, ?_⟩
  rw [mem_blk0_8]
  intro a
  match a with
  | ⟨0, _⟩ => show win0_8.index t (0 : Fin 2) * 4000 ≤ (i 0).val ∧ (i 0).val < win0_8.index t (0 : Fin 2) * 4000 + 4000; rw [e0, ht]; omega
  | ⟨1, _⟩ => show win0_8.index t (1 : Fin 2) * 64 ≤ (i 1).val ∧ (i 1).val < win0_8.index t (1 : Fin 2) * 64 + 64; rw [e1]; omega

/-- After the region the projected array holds that function. -/
theorem final0_8 (c : Dev nD) : (dat0 (F := Ideal) V c).arrAt 8 cfg0.N = proj0 V c :=
  (dat0 (F := Ideal) V c).arrAt_eq_of_cover 8 (proj0 V c) (fun t _ => flushed0_8 V c t) covered0_8

theorem region0_proj (c : Dev nD) (n : Fin 100000) (o : Fin 64) :
    ((dat0 (F := Ideal) V c).arrAt 8 cfg0.N) (ix2 n o)
      = projK (lin1K (tab (V c main_v22)) (col (V c main_v10)) (tab (V c main_arg0)) (tab (V c main_arg2)) (rowv (V c main_v23)) (tab (V c main_arg4))) (tab (V c main_arg5)) n o := by
  rw [final0_8]
  rfl

end Cert.Sage.Reg

end
-- ==== Proof.Region1Value.lean ====
/-
  The last tiled stage's output array, as a whole-array function of the arrays the stage finds.

  The stage runs over 25 row tiles of 4000 nodes. At tile `t` it reads rows `4000 t … 4000 t + 3999` of the hidden
  array, of the summed 64-wide products and of the degree column, and the whole weight and bias arrays. For row `p` of
  the tile and column `o` it stores
      (Σ_k H[p,k] · W2r[k,o] + A2[p,o] / D[p]) + b2[o].
  On extended reals the roundings to the narrow format are the identity, the matrix product into the zero accumulator
  is the plain sum of products, and the two broadcasts copy the degree along its row and the bias down its column.
  Every row `r` of the output lies in the tile of point `r / 4000`, which is written back, so the output array ends
  holding one function of the inputs: `lin2K` of the specification.
-/
import proofs.«178504_j42391327211901_2_alg».proof.Proof.Gen.KernelIdeal.Frame
import proofs.«178504_j42391327211901_2_alg».proof.Proof.Spec
import proofs.«178504_j42391327211901_2_alg».proof.Proof.LibKeepdims
import proofs.«178504_j42391327211901_2_alg».proof.Proof.LibMatmul
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Sage.Reg1

open Cert.KernelIdeal Cert.KernelIdeal.Gen Cert.Sage Idealize.ShloMosaic Idealize.ShloMosaic.ValueIdx
open Idealize.ShloMosaic.TcCoe Idealize.SL.Sem
open Idealize.ShloMosaic.Pipeline (Dat)

/-! ## The contraction's dimension numbers are the plain matrix product's -/

theorem dot2_eq : dot_S4000x128_S128x64_S4000x64_1_0_0_1_n_n = DotDims.plain 4000 128 64 := rfl

/-! ## What the body stores, entry by entry -/

/-- The body's block at row `p`, column `o`: the hidden block's row contracted with the weights, plus the
    block's summed products divided by the row's degree, plus the bias. -/
theorem pay3_apply (a2 : Vec Ideal S4000x64 .f32) (d : Vec Ideal S4000x1 .f32) (h : Vec Ideal S4000x128 .f32)
    (wr : Vec Ideal S128x64 .f32) (b : Vec Ideal S1x64 .f32) (p : Fin 4000) (o : Fin 64) :
    k1_pay1 (F := Ideal) a2 d h wr b (ix2 p o)
      = ((∑ k : Fin 128, h (ix2 p k) * wr (ix2 k o)) + Ideal.div (a2 (ix2 p o)) (d (ix2 p (0 : Fin 1)))) + b (ix2 (0 : Fin 1) o) := by
  unfold k1_pay1
  rw [dot2_eq]
  simp only [shapeCast_self]
  show (matmul (F := Ideal) (DotDims.plain 4000 128 64) none _ _ (constant _ .f32 0x00000000#32) (ix2 p o)
      + Ideal.div (a2 (ix2 p o)) (broadcastTo S4000x64 d broadcasts_S4000x1_S4000x64 (ix2 p o))) + broadcastTo S4000x64 b broadcasts_S1x64_S4000x64 (ix2 p o) = _
  rw [Cert.MatOps.matmul_plain_zero_apply, broadcastTo_1b_ab_apply, Keepdims.broadcastTo_a1_ab_apply d broadcasts_S4000x1_S4000x64 p o (0 : Fin 1)]
  rfl

theorem hz : (![0, 0] : Fin 2 → Nat) = fun _ => 0 := funext fun a => by fin_cases a <;> rfl

variable (V : (c : Dev nD) → (b : Ref sig .tc) → Buf (Elt Ideal) ((c : Thread nD τ).loc b))

/-! ## Where a block sits in its array -/

/-- The second region's index maps over its 25 points. -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

theorem idx1_0 (t : Fin cfg1.N) : win1_0.index t (0 : Fin 2) = t.val ∧ win1_0.index t (1 : Fin 2) = 0 := (idx1 t).1
theorem idx1_1 (t : Fin cfg1.N) : win1_1.index t (0 : Fin 2) = t.val ∧ win1_1.index t (1 : Fin 2) = 0 := (idx1 t).2.1
theorem idx1_2 (t : Fin cfg1.N) : win1_2.index t (0 : Fin 2) = t.val ∧ win1_2.index t (1 : Fin 2) = 0 := (idx1 t).2.2.1
theorem idx1_3 (t : Fin cfg1.N) : win1_3.index t (0 : Fin 2) = 0 ∧ win1_3.index t (1 : Fin 2) = 0 := (idx1 t).2.2.2.1
theorem idx1_4 (t : Fin cfg1.N) : win1_4.index t (0 : Fin 2) = 0 ∧ win1_4.index t (1 : Fin 2) = 0 := (idx1 t).2.2.2.2.1
theorem idx1_5 (t : Fin cfg1.N) : win1_5.index t (0 : Fin 2) = t.val ∧ win1_5.index t (1 : Fin 2) = 0 := (idx1 t).2.2.2.2.2

/-! ## The second region's input blocks as entries of the arrays the region finds -/

theorem iblk1_0_apply (c : Dev nD) (t : Fin cfg1.N) (p : Fin 4000) (k : Fin 128) (n : Fin 100000) (hn : n.val = 4000 * t.val + p.val) :
    (iblk1 (F := Ideal) V c 0 t : Vec Ideal S4000x128 .f32) (ix2 p k) = (V c main_v24_0 : S100000x128.Idx → EReal) (ix2 n k) := by
  obtain ⟨e0, e1⟩ := idx1_0 t
  unfold iblk1
  rw [View.read_apply]
  show V c main_v24_0 _ = V c main_v24_0 _
  congr 1
  funext a
  apply Fin.ext
  match a with
  | ⟨0, _⟩ => show win1_0.index t (0 : Fin 2) * 4000 + 1 * p.val = n.val; rw [e0, hn]; omega
  | ⟨1, _⟩ => show win1_0.index t (1 : Fin 2) * 128 + 1 * k.val = k.val; rw [e1]; omega

theorem iblk1_1_apply (c : Dev nD) (t : Fin cfg1.N) (p : Fin 4000) (k : Fin 64) (n : Fin 100000) (hn : n.val = 4000 * t.val + p.val) :
    (iblk1 (F := Ideal) V c 1 t : Vec Ideal S4000x64 .f32) (ix2 p k) = (V c main_v36 : S100000x64.Idx → EReal) (ix2 n k) := by
  obtain ⟨e0, e1⟩ := idx1_1 t
  unfold iblk1
  rw [View.read_apply]
  show V c main_v36 _ = V c main_v36 _
  congr 1
  funext a
  apply Fin.ext
  match a with
  | ⟨0, _⟩ => show win1_1.index t (0 : Fin 2) * 4000 + 1 * p.val = n.val; rw [e0, hn]; omega
  | ⟨1, _⟩ => show win1_1.index t (1 : Fin 2) * 64 + 1 * k.val = k.val; rw [e1]; omega

theorem iblk1_2_apply (c : Dev nD) (t : Fin cfg1.N) (p : Fin 4000) (k : Fin 1) (n : Fin 100000) (hn : n.val = 4000 * t.val + p.val) :
    (iblk1 (F := Ideal) V c 2 t : Vec Ideal S4000x1 .f32) (ix2 p k) = (V c main_v10 : S100000x1.Idx → EReal) (ix2 n k) := by
  obtain ⟨e0, e1⟩ := idx1_2 t
  unfold iblk1
  rw [View.read_apply]
  show V c main_v10 _ = V c main_v10 _
  congr 1
  funext a
  apply Fin.ext
  match a with
  | ⟨0, _⟩ => show win1_2.index t (0 : Fin 2) * 4000 + 1 * p.val = n.val; rw [e0, hn]; omega
  | ⟨1, _⟩ => show win1_2.index t (1 : Fin 2) * 1 + 1 * k.val = k.val; rw [e1]; omega

theorem iblk1_3_apply (c : Dev nD) (t : Fin cfg1.N) (a : Fin 128) (b : Fin 64) :
    (iblk1 (F := Ideal) V c 3 t : Vec Ideal S128x64 .f32) (ix2 a b) = (V c main_arg7 : S128x64.Idx → EReal) (ix2 a b) := by
  obtain ⟨e0, e1⟩ := idx1_3 t
  unfold iblk1
  rw [View.read_apply]
  show V c main_arg7 _ = V c main_arg7 _
  congr 1
  funext x
  apply Fin.ext
  match x with
  | ⟨0, _⟩ => show win1_3.index t (0 : Fin 2) * 128 + 1 * a.val = a.val; rw [e0]; omega
  | ⟨1, _⟩ => show win1_3.index t (1 : Fin 2) * 64 + 1 * b.val = b.val; rw [e1]; omega

theorem iblk1_4_apply (c : Dev nD) (t : Fin cfg1.N) (a : Fin 1) (b : Fin 64) :
    (iblk1 (F := Ideal) V c 4 t : Vec Ideal S1x64 .f32) (ix2 a b) = (V c main_v37 : S1x64.Idx → EReal) (ix2 a b) := by
  obtain ⟨e0, e1⟩ := idx1_4 t
  unfold iblk1
  rw [View.read_apply]
  show V c main_v37 _ = V c main_v37 _
  congr 1
  funext x
  apply Fin.ext
  match x with
  | ⟨0, _⟩ => show win1_4.index t (0 : Fin 2) * 1 + 1 * a.val = a.val; rw [e0]; omega
  | ⟨1, _⟩ => show win1_4.index t (1 : Fin 2) * 64 + 1 * b.val = b.val; rw [e1]; omega

/-! ## The output array -/

/-- One stored entry as the last stage's function of the arrays, given where the blocks' entries sit in them. -/
theorem lin2_block (Hd : S100000x128.Idx → EReal) (A2 : S100000x64.Idx → EReal) (D : S100000x1.Idx → EReal)
    (Wr : S128x64.Idx → EReal) (B : S1x64.Idx → EReal)
    (h : Vec Ideal S4000x128 .f32) (a2 : Vec Ideal S4000x64 .f32) (d : Vec Ideal S4000x1 .f32) (wr : Vec Ideal S128x64 .f32)
    (b : Vec Ideal S1x64 .f32) (p : Fin 4000) (n : Fin 100000)
    (hh : ∀ k : Fin 128, h (ix2 p k) = Hd (ix2 n k)) (ha : ∀ o : Fin 64, a2 (ix2 p o) = A2 (ix2 n o))
    (hd : d (ix2 p (0 : Fin 1)) = D (ix2 n (0 : Fin 1)))
    (hwr : ∀ (k : Fin 128) (o : Fin 64), wr (ix2 k o) = Wr (ix2 k o))
    (hb : ∀ o : Fin 64, b (ix2 (0 : Fin 1) o) = B (ix2 (0 : Fin 1) o)) (o : Fin 64) :
    k1_pay1 (F := Ideal) a2 d h wr b (ix2 p o) = lin2K (tab Hd) (tab A2) (col D) (tab Wr) (rowv B) n o := by
  rw [pay3_apply]
  simp only [hh, ha, hd, hwr, hb]
  rfl

/-- The output array as one function of the arrays the second region finds. -/
def out1 (c : Dev nD) : S100000x64.Idx → EReal := fun i =>
  lin2K (tab (V c main_v24_0)) (tab (V c main_v36)) (col (V c main_v10)) (tab (V c main_arg7)) (rowv (V c main_v37)) (i 0) (i 1)

/-- What point `t` writes back to the output array is block `t` of that function. -/
theorem flushed1_5 (c : Dev nD) (t : Fin cfg1.N) :
    (dat1 (F := Ideal) V c).flushed 5 t = ((cfg1.win 5).blk t).view.read (Elt Ideal) (out1 V c) := by
  show (cfg1.win 5).cut (grid1.coords t) ((dat1 V c).after 5 t) = _
  rw [after1_5]
  unfold out1_5
  rw [View.canon_unit_zero hz]
  simp only [View.ld_unit_zero (S := S4000x128) hz, View.ld_unit_zero (S := S4000x1) hz, View.ld_unit_zero (S := S4000x64) hz, View.ld_unit_zero (S := S128x64) hz, View.ld_unit_zero (S := S1x64) hz]
  funext y
  obtain ⟨p, o, rfl⟩ : ∃ (p : Fin 4000) (o : Fin 64), y = ix2 p o := ⟨y 0, y 1, eq_ix2 y⟩
  have hN : cfg1.N = 25 := N_1
  have ht : t.val < 25 := by have := t.isLt; omega
  obtain ⟨e0, e1⟩ := idx1_5 t
  obtain ⟨n, hn⟩ : ∃ n : Fin 100000, n.val = 4000 * t.val + p.val := ⟨⟨4000 * t.val + p.val, by omega⟩, rfl⟩
  have hemb : ((cfg1.win 5).blk t).view.emb (ix2 p o) = ix2 n o := by
    funext a
    apply Fin.ext
    match a with
    | ⟨0, _⟩ => show win1_5.index t (0 : Fin 2) * 4000 + 1 * p.val = n.val; rw [e0, hn]; omega
    | ⟨1, _⟩ => show win1_5.index t (1 : Fin 2) * 64 + 1 * o.val = o.val; rw [e1]; omega
  show k1_pay1 (F := Ideal) (iblk1 V c 1 t) (iblk1 V c 2 t) (iblk1 V c 0 t) (iblk1 V c 3 t) (iblk1 V c 4 t) (ix2 p o)
    = out1 V c (((cfg1.win 5).blk t).view.emb (ix2 p o))
  rw [hemb]
  exact lin2_block (V c main_v24_0) (V c main_v36) (V c main_v10) (V c main_arg7) (V c main_v37)
    (iblk1 V c 0 t) (iblk1 V c 1 t) (iblk1 V c 2 t) (iblk1 V c 3 t) (iblk1 V c 4 t) p n
    (fun k => iblk1_0_apply V c t p k n hn) (fun o => iblk1_1_apply V c t p o n hn) (iblk1_2_apply V c t p 0 n hn)
    (fun k o => iblk1_3_apply V c t k o) (fun o => iblk1_4_apply V c t 0 o) o

/-- An index of the array is in point `t`'s block iff each coordinate is in the block's range on its axis. -/
theorem mem_blk1_5 (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v38).slice (win1_5.rect t)).set ↔ _
  rw [View.set_slice_whole, Rect.mem_set_unit]
  exact Iff.rfl

/-- Row `r` of the array is in the block of point `r / 4000`, which is written back. -/
theorem covered1_5 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 25 := N_1
  obtain ⟨t, ht⟩ : ∃ t : Fin cfg1.N, t.val = (i 0).val / 4000 := ⟨⟨(i 0).val / 4000, by omega⟩, rfl⟩
  obtain ⟨e0, e1⟩ := idx1_5 t
  refine ⟨t, flush1_5 t, ?_⟩
  rw [mem_blk1_5]
  intro a
  match a with
  | ⟨0, _⟩ => show win1_5.index t (0 : Fin 2) * 4000 ≤ (i 0).val ∧ (i 0).val < win1_5.index t (0 : Fin 2) * 4000 + 4000; rw [e0, ht]; omega
  | ⟨1, _⟩ => show win1_5.index t (1 : Fin 2) * 64 ≤ (i 1).val ∧ (i 1).val < win1_5.index t (1 : Fin 2) * 64 + 64; rw [e1]; omega

/-- After the region the output array holds that function. -/
theorem final1_5 (c : Dev nD) : (dat1 (F := Ideal) V c).arrAt 5 cfg1.N = out1 V c :=
  (dat1 (F := Ideal) V c).arrAt_eq_of_cover 5 (out1 V c) (fun t _ => flushed1_5 V c t) covered1_5

theorem region1_out (c : Dev nD) (n : Fin 100000) (o : Fin 64) :
    ((dat1 (F := Ideal) V c).arrAt 5 cfg1.N) (ix2 n o)
      = lin2K (tab (V c main_v24_0)) (tab (V c main_v36)) (col (V c main_v10)) (tab (V c main_arg7)) (rowv (V c main_v37)) n o := by
  rw [final1_5]
  rfl

end Cert.Sage.Reg1

end
-- ==== Proof.KernelValue.lean ====
/-
  The tiled program's result array is the specification's second arrangement of the arguments.

  The first stage finds the summed feature rows, the degree column, the features, the weights and the bias row; it
  leaves the hidden rows and their products with the second layer's aggregation weights. Between the stages the host
  sums the product rows the edges select. The last stage finds the hidden rows, those sums, the degree column, the
  second layer's own weights and bias row, and leaves the result. Composing what each stage leaves with what the host
  hands it gives `outK` of the arguments.
-/
import proofs.«178504_j42391327211901_2_alg».proof.Proof.Host0
import proofs.«178504_j42391327211901_2_alg».proof.Proof.Host1
import proofs.«178504_j42391327211901_2_alg».proof.Proof.Region0Value
import proofs.«178504_j42391327211901_2_alg».proof.Proof.Region1Value

noncomputable section

namespace Cert.Sage.Kernel

open Cert.KernelIdeal Cert.KernelIdeal.Gen Cert.Sage Cert.Sage.Host
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## What the first stage finds, as tables -/

theorem sum_tab (c : Dev nD) : tab (V1 (F := Ideal) m ρ c main_v22) = agg (col (srcK (m ((c : Thread nD τ).loc main_arg1)))) (col (dstK (m ((c : Thread nD τ).loc main_arg1)))) (tab (m ((c : Thread nD τ).loc main_arg0) : S100000x128.Idx → EReal)) :=
  funext fun n => funext fun k => V1_agg m ρ c n k

theorem deg_col (c : Dev nD) : col (V1 (F := Ideal) m ρ c main_v10) = deg (col (dstK (m ((c : Thread nD τ).loc main_arg1)))) :=
  funext fun n => V1_deg m ρ c n

theorem bias_row (c : Dev nD) : rowv (V1 (F := Ideal) m ρ c main_v23) = (vec (m ((c : Thread nD τ).loc main_arg3) : S128.Idx → EReal)) :=
  funext fun j => V1_bias_at m ρ c j

/-! ## What the first stage leaves -/

/-- The hidden rows. -/
theorem hidden_tab (c : Dev nD) : tab ((dat0 (F := Ideal) (V1 m ρ) c).arrAt 7 cfg0.N) = (hidK (col (srcK (m ((c : Thread nD τ).loc main_arg1)))) (col (dstK (m ((c : Thread nD τ).loc main_arg1)))) (tab (m ((c : Thread nD τ).loc main_arg0) : S100000x128.Idx → EReal)) (tab (m ((c : Thread nD τ).loc main_arg2) : S128x128.Idx → EReal)) (vec (m ((c : Thread nD τ).loc main_arg3) : S128.Idx → EReal)) (tab (m ((c : Thread nD τ).loc main_arg4) : S128x128.Idx → EReal))) := by
  funext n j
  refine (Reg.region0_hidden (V1 m ρ) c n j).trans ?_
  rw [sum_tab, deg_col, bias_row, V1_arg0, V1_arg2, V1_arg4]
  rfl

/-- Their products with the second layer's aggregation weights. -/
theorem proj_tab (c : Dev nD) : tab ((dat0 (F := Ideal) (V1 m ρ) c).arrAt 8 cfg0.N) = projK (hidK (col (srcK (m ((c : Thread nD τ).loc main_arg1)))) (col (dstK (m ((c : Thread nD τ).loc main_arg1)))) (tab (m ((c : Thread nD τ).loc main_arg0) : S100000x128.Idx → EReal)) (tab (m ((c : Thread nD τ).loc main_arg2) : S128x128.Idx → EReal)) (vec (m ((c : Thread nD τ).loc main_arg3) : S128.Idx → EReal)) (tab (m ((c : Thread nD τ).loc main_arg4) : S128x128.Idx → EReal))) (tab (m ((c : Thread nD τ).loc main_arg5) : S128x64.Idx → EReal)) := by
  funext n o
  refine (Reg.region0_proj (V1 m ρ) c n o).trans ?_
  rw [sum_tab, deg_col, bias_row, V1_arg0, V1_arg2, V1_arg4, V1_arg5]
  rfl

/-! ## What the last stage finds, and leaves -/

theorem hidden_tab' (c : Dev nD) : tab (V3 (F := Ideal) m ρ c main_v24_0) = (hidK (col (srcK (m ((c : Thread nD τ).loc main_arg1)))) (col (dstK (m ((c : Thread nD τ).loc main_arg1)))) (tab (m ((c : Thread nD τ).loc main_arg0) : S100000x128.Idx → EReal)) (tab (m ((c : Thread nD τ).loc main_arg2) : S128x128.Idx → EReal)) (vec (m ((c : Thread nD τ).loc main_arg3) : S128.Idx → EReal)) (tab (m ((c : Thread nD τ).loc main_arg4) : S128x128.Idx → EReal))) := by
  rw [Host1.V3_hidden]; exact hidden_tab m ρ c

theorem sum2_tab (c : Dev nD) : tab (V3 (F := Ideal) m ρ c main_v36) = agg (col (srcK (m ((c : Thread nD τ).loc main_arg1)))) (col (dstK (m ((c : Thread nD τ).loc main_arg1)))) (projK (hidK (col (srcK (m ((c : Thread nD τ).loc main_arg1)))) (col (dstK (m ((c : Thread nD τ).loc main_arg1)))) (tab (m ((c : Thread nD τ).loc main_arg0) : S100000x128.Idx → EReal)) (tab (m ((c : Thread nD τ).loc main_arg2) : S128x128.Idx → EReal)) (vec (m ((c : Thread nD τ).loc main_arg3) : S128.Idx → EReal)) (tab (m ((c : Thread nD τ).loc main_arg4) : S128x128.Idx → EReal))) (tab (m ((c : Thread nD τ).loc main_arg5) : S128x64.Idx → EReal))) := by
  funext n o
  refine (Host1.V3_sum m ρ c n o).trans ?_
  rw [proj_tab]

theorem deg_col' (c : Dev nD) : col (V3 (F := Ideal) m ρ c main_v10) = deg (col (dstK (m ((c : Thread nD τ).loc main_arg1)))) := by
  rw [Host1.V3_cnt]; exact deg_col m ρ c

theorem bias2_row (c : Dev nD) : rowv (V3 (F := Ideal) m ρ c main_v37) = (vec (m ((c : Thread nD τ).loc main_arg6) : S64.Idx → EReal)) :=
  funext fun o => (congrFun (Host1.V3_bias m ρ c) (ix2 (0 : Fin 1) o)).trans
    (shapeCast_a_1a_apply _ shapeCasts_S64_S1x64 (0 : Fin 1) o)

/-- THE RESULT: what the last stage's write-backs leave, at `(n, o)`. -/
theorem kernel_value (c : Dev nD) (n : Fin 100000) (o : Fin 64) :
    ((dat1 (F := Ideal) (V3 m ρ) c).arrAt 5 cfg1.N) (ix2 n o)
      = outK (col (srcK (m ((c : Thread nD τ).loc main_arg1)))) (col (dstK (m ((c : Thread nD τ).loc main_arg1)))) (tab (m ((c : Thread nD τ).loc main_arg0) : S100000x128.Idx → EReal)) (tab (m ((c : Thread nD τ).loc main_arg2) : S128x128.Idx → EReal)) (vec (m ((c : Thread nD τ).loc main_arg3) : S128.Idx → EReal)) (tab (m ((c : Thread nD τ).loc main_arg4) : S128x128.Idx → EReal)) (tab (m ((c : Thread nD τ).loc main_arg5) : S128x64.Idx → EReal)) (vec (m ((c : Thread nD τ).loc main_arg6) : S64.Idx → EReal)) (tab (m ((c : Thread nD τ).loc main_arg7) : S128x64.Idx → EReal)) n o := by
  refine (Reg1.region1_out (V3 m ρ) c n o).trans ?_
  rw [hidden_tab', sum2_tab, deg_col', bias2_row, Host1.V3_w2r]
  rfl

end Cert.Sage.Kernel

end
-- ==== Proof.FiniteInputs.lean ====
/-
  From the precondition to "every float input entry is a real number".

  The precondition states that the conjunction, over the seven float input arrays x, of "every entry of |x| is
  below +infinity" evaluates to one. Over the extended reals |x| is max x (-x) and the word 0x7F800000 denotes the
  top element, so an entry satisfies the comparison exactly when it is neither infinity, that is, when it is (the
  coercion of) a real number. A conjunction of one-bit words is one exactly when each word is one, and a reduction by
  "and" over all axes is one only if every element reduced is one; so each array's entries are all real.
-/
import proofs.«178504_j42391327211901_2_alg».proof.Defs
import proofs.«178504_j42391327211901_2_alg».proof.Proof.LibGnnLaws
import Idealize.ShloMosaic.Lib.ReduceAll
import Idealize.ShloMosaic.Lib.ValueIdx

noncomputable section

namespace Cert.Sage.Fin

open Cert.KernelIdeal Cert.Lib.GnnLaws Idealize.ShloMosaic Idealize.SL.Sem

/-- The rank-zero shape has one index. -/
instance : Subsingleton Cert.Pre_finite_inputs.S_.Idx := ⟨fun a b => funext fun d => d.elim0⟩

/-- An extended real whose absolute value max x (-x) is strictly below the value of the word 0x7F800000 (the top
    element) is a real number: x < ⊤ excludes ⊤, and -x < ⊤ excludes ⊥. -/
theorem isReal_of_abs_lt (x : EReal)
    (h : FloatOps.cmpf (F := Ideal) (φ := .f32) .olt (FloatOps.hostAbsf (F := Ideal) (φ := .f32) x)
          (FloatOps.ofBits (F := Ideal) .f32 0x7F800000#32) = 1#1) :
    IsReal x := by
  have ht : Ideal.ofBits .f32 0x7F800000#32 = ⊤ := by simp [Ideal.ofBits, Ideal.ieee]
  change BitVec.ofBool (decide (max x (-x) < Ideal.ofBits .f32 0x7F800000#32)) = 1#1 at h
  rw [ht] at h
  have hlt : max x (-x) < ⊤ := by
    by_contra hn
    simp [hn] at h
  obtain ⟨h1, h2⟩ := max_lt_iff.1 hlt
  refine isReal_of_ne (ne_of_lt h1) ?_
  rintro rfl
  simp at h2

/-- One array, any shape: if the reduction by "and", over all axes, of the entrywise comparison |x| < +infinity is
    one, then every entry of x is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu j = 1#1) (i : s.Idx) : IsReal (x i) :=
  isReal_of_abs_lt (x i) (Host.reduce_andi_all _ _ hr hu j e i)

/-- Under the precondition every entry of each of the seven float inputs (the features, the two layers' weights and
    biases) is a real number. -/
theorem real_inputs [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i))
    ∧ (∀ i, IsReal (m ((c.tc : Thread Cert.KernelIdeal.nD Cert.KernelIdeal.τ).loc Cert.KernelIdeal.main_arg7) i)) := by
  -- the predicate's one result word, with its chain of operations in view
  have e := congrFun (h c) ValueIdx.ix0
  dsimp only [Cert.Pre_finite_inputs.fn, Cert.Pre_finite_inputs.fn_part1] at e
  -- a conjunction of two one-bit words is one only if both are
  have split : ∀ (a b : IVec Cert.Pre_finite_inputs.S_ 1) (j : Cert.Pre_finite_inputs.S_.Idx),
      andi a b j = 1#1 → a j = 1#1 ∧ b j = 1#1 := fun a b j h => IntOp.andi_eq_one.1 h
  obtain ⟨e, e7⟩ := split _ _ _ e
  obtain ⟨e, e6⟩ := split _ _ _ e
  obtain ⟨e, e5⟩ := split _ _ _ e
  obtain ⟨e, e4⟩ := split _ _ _ e
  obtain ⟨e, e3⟩ := split _ _ _ e
  obtain ⟨e0, e2⟩ := split _ _ _ e
  exact ⟨real_of_all _ _ _ _ _ e0, real_of_all _ _ _ _ _ e2, real_of_all _ _ _ _ _ e3, real_of_all _ _ _ _ _ e4,
    real_of_all _ _ _ _ _ e5, real_of_all _ _ _ _ _ e6, real_of_all _ _ _ _ _ e7⟩

end Cert.Sage.Fin

end
-- ==== Proof.Join.lean ====
/-
  The two programs' results are one array.

  The reference's result at `(n, o)` is the first arrangement `outR` of its arguments; the tiled program's is the
  second arrangement `outK` of its own. The arguments agree, the two programs derive the same index arrays from the
  edge array, and on real features and real first-layer and aggregation weights the arrangements agree.
-/
import proofs.«178504_j42391327211901_2_alg».proof.Proof.RefValue
import proofs.«178504_j42391327211901_2_alg».proof.Proof.KernelValue
import proofs.«178504_j42391327211901_2_alg».proof.Proof.FiniteInputs

noncomputable section

namespace Cert.Sage.Join

open Idealize.ShloMosaic Idealize.ShloMosaic.TcCoe Idealize.SL.Sem Idealize.ShloMosaic.ValueIdx Cert.Sage Cert.Lib.GnnLaws

/-- Both programs wrap and lay out the source words in the same way. -/
theorem src_same (ei : IVec ⟨2, ![2, 1600000]⟩ 32) :
    Cert.ReferenceIdeal.Read.val_main_v9 (F := Ideal) ei = Cert.Sage.Host.srcK ei := rfl

/-- Both programs lay out the destination words in the same way. -/
theorem dst_same (ei : IVec ⟨2, ![2, 1600000]⟩ 32) :
    Cert.ReferenceIdeal.Read.val_main_v12 (F := Ideal) ei = Cert.Sage.Host.dstK ei := rfl

/-- The reference's result term is the array the tiled program's last stage leaves. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hx : ∀ i, IsReal (m ((c.tc : Thread Cert.KernelIdeal.nD Cert.KernelIdeal.τ).loc Cert.KernelIdeal.main_arg0) i)) (hl : ∀ i, IsReal (m ((c.tc : Thread Cert.KernelIdeal.nD Cert.KernelIdeal.τ).loc Cert.KernelIdeal.main_arg2) i))
    (hb : ∀ i, IsReal (m ((c.tc : Thread Cert.KernelIdeal.nD Cert.KernelIdeal.τ).loc Cert.KernelIdeal.main_arg3) i)) (hr : ∀ i, IsReal (m ((c.tc : Thread Cert.KernelIdeal.nD Cert.KernelIdeal.τ).loc Cert.KernelIdeal.main_arg4) i))
    (hl2 : ∀ i, IsReal (m ((c.tc : Thread Cert.KernelIdeal.nD Cert.KernelIdeal.τ).loc Cert.KernelIdeal.main_arg5) i))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v58 (F := Ideal) m' c
      = (Cert.KernelIdeal.Gen.dat1 (F := Ideal) (Cert.KernelIdeal.Gen.V3 m ρ) c).arrAt 5 Cert.KernelIdeal.cfg1.N := by
  rw [Cert.ReferenceIdeal.Read.val_main_v58_eq, h0, h1, h2, h3, h4, h5, h6, h7]
  funext i
  obtain ⟨n, o, rfl⟩ : ∃ (n : Fin 100000) (o : Fin 64), i = ix2 n o := ⟨i 0, i 1, eq_ix2 i⟩
  refine (Cert.Sage.Ref.ref_value _ _ _ _ _ _ _ _ n o).trans ?_
  refine Eq.trans ?_ (Cert.Sage.Kernel.kernel_value m ρ c n o).symm
  rw [src_same, dst_same]
  exact (congrFun (congrFun (outK_eq_outR _ _ _ _ _ _ _ _ _
    (fun n k => hx (ix2 n k)) (fun k j => hl (ix2 k j)) (fun j => hb (ix1 j)) (fun k j => hr (ix2 k j))
    (fun k o => hl2 (ix2 k o))) n) o).symm

end Cert.Sage.Join

end
-- ==== Proof.lean ====
/-
  Two layers of mean aggregation over a graph of 100000 nodes and 1600000 edges, tiled, against the plain host
  program: equal results on the extended reals.

  The reference gathers feature rows by source word, adds them by destination word, divides by the in-degree (at
  least one), contracts the mean with the aggregation weights, adds the bias and the node's own row contracted with a
  second matrix, rectifies, and repeats for the second layer without a rectifier. The tiled program keeps the gathers
  and the additions on the host and computes the dense part in two stages over 25 tiles of 4000 rows; in the second
  layer it contracts the hidden rows with the aggregation weights BEFORE the edge sum and the division. Rounding to a
  narrower format is the identity on the extended reals; the remaining differences are the order of three additions
  and the exchange of a contraction with a sum over edges and a division, which holds on real entries: the
  precondition makes the features and the weights real, hence the hidden rows.

  The frames of the word-level and the idealized tiled programs are the generated ones; the reference's frame is its
  generated run with the result dropped; the idealization rewrote nothing.
-/
import proofs.«178504_j42391327211901_2_alg».proof.Defs
import proofs.«178504_j42391327211901_2_alg».proof.Proof.Gen.Kernel
import proofs.«178504_j42391327211901_2_alg».proof.Proof.Gen.Kernel.Frame
import proofs.«178504_j42391327211901_2_alg».proof.Proof.Gen.KernelIdeal
import proofs.«178504_j42391327211901_2_alg».proof.Proof.Gen.KernelIdeal.Frame
import proofs.«178504_j42391327211901_2_alg».proof.Proof.Gen.ReferenceIdeal
import proofs.«178504_j42391327211901_2_alg».proof.Proof.Gen.ReferenceIdeal.Run
import proofs.«178504_j42391327211901_2_alg».proof.Proof.Gen.ReferenceIdeal.Read
import proofs.«178504_j42391327211901_2_alg».proof.Proof.Gen.Pre_finite_inputs
import proofs.«178504_j42391327211901_2_alg».proof.Proof.KernelRun
import proofs.«178504_j42391327211901_2_alg».proof.Proof.Join
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs run; the reference's result is the array the tiled program's last stage leaves. -/
theorem algebraic : Cert.algebraic_KernelIdeal_ReferenceIdeal := by
  intro m ρ m' ρ' hpre hagree
  refine ⟨fun c => (Cert.KernelIdeal.Gen.dat1 (F := Ideal) (Cert.KernelIdeal.Gen.V3 m ρ) c).arrAt 5 Cert.KernelIdeal.cfg1.N,
    Cert.Sage.Run.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hx, hl, hb, hr, hl2, -, -⟩ := Cert.Sage.Fin.real_inputs m hpre c
  obtain ⟨h0, h1, h2, h3, h4, h5, h6, h7⟩ := hagree c
  exact Cert.Sage.Join.result_eq m ρ m' c hx hl hb hr hl2 h0 h1 h2 h3 h4 h5 h6 h7

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
